-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S_ : Shape := ⟨0, ![]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel

variable [Facts]

def fn {F : FTy → Type} [FloatOps F] (main_arg0 : FVec F S8000000x4 .f32) (main_arg1 : FVec F S8000000x4 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x4 .f32 := Host.absf main_arg1
  let main_cst_0 : FVec F S_ .f32 := constant S_ .f32 0x7F800000#32
  let main_v5 : FVec F S8000000x4 .f32 := broadcastInDim S8000000x4 ![] bcast_S_S8000000x4 main_cst_0
  let main_v6 : IVec S8000000x4 1 := cmpf .olt main_v4 main_v5
  let main_c_1 : IVec S_ 1 := constantI S_ 1 1#1
  let main_v7 : IVec S_ 1 := (fun x v => Host.reduce IntOp.andi x v reducesTo_S8000000x4_S_d0_1 h_S_) main_v6 main_c_1
  let main_v8 : IVec S_ 1 := andi main_v3 main_v7
  main_v8
-- ==== Kernel.lean ====
abbrev S8000000x4 : Shape := ⟨2, ![8000000, 4]⟩
abbrev S1x1 : Shape := ⟨2, ![1, 1]⟩
abbrev S10000x4 : Shape := ⟨2, ![10000, 4]⟩
abbrev S10000x1 : Shape := ⟨2, ![10000, 1]⟩
abbrev S10000 : Shape := ⟨1, ![10000]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S10000x4, .f32⟩
  | .local _ .vmem, ⟨1, _⟩ => ⟨S10000x4, .f32⟩
  | .local _ .vmem, ⟨2, _⟩ => ⟨S10000x4, .f32⟩
  | .local _ .vmem, ⟨3, _⟩ => ⟨S10000x4, .f32⟩
  | .local _ .vmem, ⟨4, _⟩ => ⟨S1x1, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S10000x4_S10000x4_0_0 : ∀ a, (![0, 0] : Fin 2 → Nat) a + S10000x4.size a ≤ S10000x4.size a
  h_S10000x4 : 0 < S10000x4.numel
  slices_S10000x4_o0_0_S10000x1 : S10000x4.Slices ![0, 0] S10000x1
  slices_S10000x4_o0_1_S10000x1 : S10000x4.Slices ![0, 1] S10000x1
  slices_S10000x4_o0_2_S10000x1 : S10000x4.Slices ![0, 2] S10000x1
  slices_S10000x4_o0_3_S10000x1 : S10000x4.Slices ![0, 3] S10000x1
  concatenates_S10000x1_S10000x1_S10000x1_S10000x1_S10000x4_d1 : Shape.Concatenates [S10000x1, S10000x1, S10000x1, S10000x1] S10000x4 1
  reduces_S10000x4_S10000 : S10000x4.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S8000000x4.size a
  hwx0_0 : ∀ i : grid0.Coords, EltTy.bits .f32 = 32 ∨ (Rect.block (s := S8000000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S8000000x4.size a
  hwx0_1 : ∀ i : grid0.Coords, EltTy.bits .f32 = 32 ∨ (Rect.block (s := S8000000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x1 : Shape := ⟨2, ![8000000, 1]⟩
abbrev S8000000 : Shape := ⟨1, ![8000000]⟩
abbrev S_ : Shape := ⟨0, ![]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S8000000x1, .f32⟩
  | .hbm, ⟨3, _⟩ => ⟨S8000000, .f32⟩
  | .hbm, ⟨4, _⟩ => ⟨S8000000x1, .f32⟩
  | .hbm, ⟨5, _⟩ => ⟨S8000000, .f32⟩
  | .hbm, ⟨6, _⟩ => ⟨S8000000, .f32⟩
  | .hbm, ⟨7, _⟩ => ⟨S_, .f32⟩
  | .hbm, ⟨8, _⟩ => ⟨S8000000, .f32⟩
  | .hbm, ⟨9, _⟩ => ⟨S8000000, .i1⟩
  | .hbm, ⟨10, _⟩ => ⟨S_, .f32⟩
  | .hbm, ⟨11, _⟩ => ⟨S8000000, .f32⟩
  | .hbm, ⟨12, _⟩ => ⟨S8000000, .i1⟩
  | .hbm, ⟨13, _⟩ => ⟨S8000000, .i1⟩
  | .hbm, ⟨14, _⟩ => ⟨S8000000, .f32⟩
  | .hbm, ⟨15, _⟩ => ⟨S_, .f32⟩
  | .hbm, ⟨16, _⟩ => ⟨S8000000, .f32⟩
  | .hbm, ⟨17, _⟩ => ⟨S8000000, .i1⟩
  | .hbm, ⟨18, _⟩ => ⟨S_, .f32⟩
  | .hbm, ⟨19, _⟩ => ⟨S8000000, .f32⟩
  | .hbm, ⟨20, _⟩ => ⟨S8000000, .i1⟩
  | .hbm, ⟨21, _⟩ => ⟨S8000000, .i1⟩
  | .hbm, ⟨22, _⟩ => ⟨S_, .f32⟩
  | .hbm, ⟨23, _⟩ => ⟨S8000000, .f32⟩
  | .hbm, ⟨24, _⟩ => ⟨S8000000, .i1⟩
  | .hbm, ⟨25, _⟩ => ⟨S8000000, .i1⟩
  | .hbm, ⟨26, _⟩ => ⟨S8000000, .f32⟩
  | .hbm, ⟨27, _⟩ => ⟨S_, .i32⟩
  | .hbm, ⟨28, _⟩ => ⟨S1, .i32⟩
  | .hbm, ⟨29, _⟩ => ⟨S8000000x4, .f32⟩
  | .hbm, ⟨30, _⟩ => ⟨S8000000x1, .f32⟩
  | .hbm, ⟨31, _⟩ => ⟨S8000000, .f32⟩
  | .hbm, ⟨32, _⟩ => ⟨S8000000x1, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .i1⟩
  | .hbm, ⟨38, _⟩ => ⟨S_, .f32⟩
  | .hbm, ⟨39, _⟩ => ⟨S8000000, .f32⟩
  | .hbm, ⟨40, _⟩ => ⟨S8000000, .i1⟩
  | .hbm, ⟨41, _⟩ => ⟨S8000000, .i1⟩
  | .hbm, ⟨42, _⟩ => ⟨S8000000, .f32⟩
  | .hbm, ⟨43, _⟩ => ⟨S_, .f32⟩
  | .hbm, ⟨44, _⟩ => ⟨S8000000, .f32⟩
  | .hbm, ⟨45, _⟩ => ⟨S8000000, .i1⟩
  | .hbm, ⟨46, _⟩ => ⟨S_, .f32⟩
  | .hbm, ⟨47, _⟩ => ⟨S8000000, .f32⟩
  | .hbm, ⟨48, _⟩ => ⟨S8000000, .i1⟩
  | .hbm, ⟨49, _⟩ => ⟨S8000000, .i1⟩
  | .hbm, ⟨50, _⟩ => ⟨S_, .f32⟩
  | .hbm, ⟨51, _⟩ => ⟨S8000000, .f32⟩
  | .hbm, ⟨52, _⟩ => ⟨S8000000, .i1⟩
  | .hbm, ⟨53, _⟩ => ⟨S8000000, .i1⟩
  | .hbm, ⟨54, _⟩ => ⟨S8000000, .f32⟩
  | .hbm, ⟨55, _⟩ => ⟨S_, .i32⟩
  | .hbm, ⟨56, _⟩ => ⟨S1, .i32⟩
  | .hbm, ⟨57, _⟩ => ⟨S8000000x4, .f32⟩
  | .hbm, ⟨58, _⟩ => ⟨S8000000x1, .f32⟩
  | .hbm, ⟨59, _⟩ => ⟨S8000000, .f32⟩
  | .hbm, ⟨60, _⟩ => ⟨S8000000x1, .f32⟩
  | .hbm, ⟨61, _⟩ => ⟨S8000000, .f32⟩
  | .hbm, ⟨62, _⟩ => ⟨S8000000x1, .f32⟩
  | .hbm, ⟨63, _⟩ => ⟨S8000000, .f32⟩
  | .hbm, ⟨64, _⟩ => ⟨S_, .f32⟩
  | .hbm, ⟨65, _⟩ => ⟨S8000000, .f32⟩
  | .hbm, ⟨66, _⟩ => ⟨S8000000, .i1⟩
  | .hbm, ⟨67, _⟩ => ⟨S_, .f32⟩
  | .hbm, ⟨68, _⟩ => ⟨S8000000, .f32⟩
  | .hbm, ⟨69, _⟩ => ⟨S8000000, .f32⟩
  | .hbm, ⟨70, _⟩ => ⟨S8000000, .i1⟩
  | .hbm, ⟨71, _⟩ => ⟨S_, .f32⟩
  | .hbm, ⟨72, _⟩ => ⟨S8000000, .f32⟩
  | .hbm, ⟨73, _⟩ => ⟨S8000000, .f32⟩
  | .hbm, ⟨74, _⟩ => ⟨S8000000, .i1⟩
  | .hbm, ⟨75, _⟩ => ⟨S8000000, .i1⟩
  | .hbm, ⟨76, _⟩ => ⟨S8000000, .i1⟩
  | .hbm, ⟨77, _⟩ => ⟨S8000000, .f32⟩
  | .hbm, ⟨78, _⟩ => ⟨S_, .i32⟩
  | .hbm, ⟨79, _⟩ => ⟨S1, .i32⟩
  | .hbm, ⟨80, _⟩ => ⟨S8000000x4, .f32⟩
  | .hbm, ⟨81, _⟩ => ⟨S8000000x4, .f32⟩
  | .hbm, ⟨82, _⟩ => ⟨S8000000x4, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  slices_S8000000x4_S8000000x1_0_0 : S8000000x4.Slices ![0, 0] S8000000x1
  shapeCasts_S8000000x1_S8000000 : S8000000x1.ShapeCasts S8000000
  bcast_S_S8000000 : S_.BroadcastsInDim S8000000 (![] : Fin 0 → Fin S8000000.rank)
  bcast_S_S1 : S_.BroadcastsInDim S1 (![] : Fin 0 → Fin S1.rank)
  slices_S8000000x4_S8000000x1_0_1 : S8000000x4.Slices ![0, 1] S8000000x1
  slices_S8000000x4_S8000000x1_0_2 : S8000000x4.Slices ![0, 2] S8000000x1
  reducesTo_S8000000x4_S_d0_1 : S8000000x4.ReducesTo [0, 1] S_
  h_S_ : 0 < S_.numel
  scatter_S8000000x4_S1_S8000000_0_1_1_0_wf : ScatterDims.WF S8000000x4 S1 S8000000 [0] [1] [1] 0

variable [Facts₀]

def scatter_S8000000x4_S1_S8000000_0_1_1_0 : ScatterDims S8000000x4 S1 S8000000 where
  updateWindowDims := [0]
  insertedWindowDims := [1]
  scatterDimsToOperandDims := [1]
  indexVectorDim := 0
  wf := scatter_S8000000x4_S1_S8000000_0_1_1_0_wf

class Facts : Prop extends Facts₀ where

variable [Facts]
-- ==== Proof.RefOps.lean ====
/-
  The reference program's @main as the list of its 85 host operations, in program order: a call of the
  program's own `_where` function stands as the one select it performs. The program IS the sequence of this list (by unfolding),
  every operation touches only buffers of the signature, and the signature scopes no buffer and no semaphore.
-/
import proofs.«116874_j21595095564576_2_alg».proof.Proof.Gen.ReferenceIdeal
import Idealize.ShloMosaic.Lib.StableHlo.Run

noncomputable section

namespace Cert.ReferenceIdeal.RangeLossRef

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ unary main_arg0 main_v0 ((extractStridedSlice S8000000x1 ![0, 0] · slices_S8000000x4_S8000000x1_0_0) : (⟨S8000000x4, .f32⟩ : BufTy).Contents (Elt F) → (⟨S8000000x1, .f32⟩ : BufTy).Contents (Elt F)),
    reshape main_v0 main_v1 rfl shapeCasts_S8000000x1_S8000000,
    unary main_arg1 main_v2 ((extractStridedSlice S8000000x1 ![0, 0] · slices_S8000000x4_S8000000x1_0_0) : (⟨S8000000x4, .f32⟩ : BufTy).Contents (Elt F) → (⟨S8000000x1, .f32⟩ : BufTy).Contents (Elt F)),
    reshape main_v2 main_v3 rfl shapeCasts_S8000000x1_S8000000,
    unary main_v1 main_v4 (Host.absf : (⟨S8000000, .f32⟩ : BufTy).Contents (Elt F) → (⟨S8000000, .f32⟩ : BufTy).Contents (Elt F)),
    nullary main_cst (constant S_ .f32 0x3C23D70A#32),
    unary main_cst main_v5 (broadcastInDim S8000000 ![] bcast_S_S8000000 : (⟨S_, .f32⟩ : BufTy).Contents (Elt F) → (⟨S8000000, .f32⟩ : BufTy).Contents (Elt F)),
    binary main_v4 main_v5 main_v6 (cmpf .olt : (⟨S8000000, .f32⟩ : BufTy).Contents (Elt F) → (⟨S8000000, .f32⟩ : BufTy).Contents (Elt F) → (⟨S8000000, .i1⟩ : BufTy).Contents (Elt F)),
    nullary main_cst_0 (constant S_ .f32 0x00000000#32),
    unary main_cst_0 main_v7 (broadcastInDim S8000000 ![] bcast_S_S8000000 : (⟨S_, .f32⟩ : BufTy).Contents (Elt F) → (⟨S8000000, .f32⟩ : BufTy).Contents (Elt F)),
    binary main_v3 main_v7 main_v8 (cmpf .oeq : (⟨S8000000, .f32⟩ : BufTy).Contents (Elt F) → (⟨S8000000, .f32⟩ : BufTy).Contents (Elt F) → (⟨S8000000, .i1⟩ : BufTy).Contents (Elt F)),
    binary main_v6 main_v8 main_v9 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v9) (TRef.of (T := ⟨S8000000, .f32⟩) main_v1) (TRef.of (T := ⟨S8000000, .f32⟩) main_v3) (TRef.of (T := ⟨S8000000, .f32⟩) main_v10) select,
    nullary main_cst_1 (constant S_ .f32 0x3F7D70A4#32),
    unary main_cst_1 main_v11 (broadcastInDim S8000000 ![] bcast_S_S8000000 : (⟨S_, .f32⟩ : BufTy).Contents (Elt F) → (⟨S8000000, .f32⟩ : BufTy).Contents (Elt F)),
    binary main_v1 main_v11 main_v12 (cmpf .ogt : (⟨S8000000, .f32⟩ : BufTy).Contents (Elt F) → (⟨S8000000, .f32⟩ : BufTy).Contents (Elt F) → (⟨S8000000, .i1⟩ : BufTy).Contents (Elt F)),
    nullary main_cst_2 (constant S_ .f32 0x3F8147AE#32),
    unary main_cst_2 main_v13 (broadcastInDim S8000000 ![] bcast_S_S8000000 : (⟨S_, .f32⟩ : BufTy).Contents (Elt F) → (⟨S8000000, .f32⟩ : BufTy).Contents (Elt F)),
    binary main_v1 main_v13 main_v14 (cmpf .olt : (⟨S8000000, .f32⟩ : BufTy).Contents (Elt F) → (⟨S8000000, .f32⟩ : BufTy).Contents (Elt F) → (⟨S8000000, .i1⟩ : BufTy).Contents (Elt F)),
    binary main_v12 main_v14 main_v15 (andi : (⟨S8000000, .i1⟩ : BufTy).Contents (Elt F) → (⟨S8000000, .i1⟩ : BufTy).Contents (Elt F) → (⟨S8000000, .i1⟩ : BufTy).Contents (Elt F)),
    nullary main_cst_3 (constant S_ .f32 0x3F800000#32),
    unary main_cst_3 main_v16 (broadcastInDim S8000000 ![] bcast_S_S8000000 : (⟨S_, .f32⟩ : BufTy).Contents (Elt F) → (⟨S8000000, .f32⟩ : BufTy).Contents (Elt F)),
    binary main_v10 main_v16 main_v17 (cmpf .oeq : (⟨S8000000, .f32⟩ : BufTy).Contents (Elt F) → (⟨S8000000, .f32⟩ : BufTy).Contents (Elt F) → (⟨S8000000, .i1⟩ : BufTy).Contents (Elt F)),
    binary main_v15 main_v17 main_v18 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v18) (TRef.of (T := ⟨S8000000, .f32⟩) main_v1) (TRef.of (T := ⟨S8000000, .f32⟩) main_v10) (TRef.of (T := ⟨S8000000, .f32⟩) main_v19) select,
    nullary main_c (constantI S_ 32 0#32),
    unary main_c main_v20 (broadcastInDim S1 ![] bcast_S_S1 : (⟨S_, .i32⟩ : BufTy).Contents (Elt F) → (⟨S1, .i32⟩ : BufTy).Contents (Elt F)),
    ternary main_arg1 main_v20 main_v19 main_v21 ((fun x i u => Host.scatter scatter_S8000000x4_S1_S8000000_0_1_1_0 (fun _ b => b) x i u) : (⟨S8000000x4, .f32⟩ : BufTy).Contents (Elt F) → (⟨S1, .i32⟩ : BufTy).Contents (Elt F) → (⟨S8000000, .f32⟩ : BufTy).Contents (Elt F) → (⟨S8000000x4, .f32⟩ : BufTy).Contents (Elt F)),
    unary main_arg0 main_v22 ((extractStridedSlice S8000000x1 ![0, 1] · slices_S8000000x4_S8000000x1_0_1) : (⟨S8000000x4, .f32⟩ : BufTy).Contents (Elt F) → (⟨S8000000x1, .f32⟩ : BufTy).Contents (Elt F)),
    reshape main_v22 main_v23 rfl shapeCasts_S8000000x1_S8000000,
    unary main_v21 main_v24 ((extractStridedSlice S8000000x1 ![0, 1] · slices_S8000000x4_S8000000x1_0_1) : (⟨S8000000x4, .f32⟩ : BufTy).Contents (Elt F) → (⟨S8000000x1, .f32⟩ : BufTy).Contents (Elt F)),
    reshape main_v24 main_v25 rfl shapeCasts_S8000000x1_S8000000,
    unary main_v23 main_v26 (Host.absf : (⟨S8000000, .f32⟩ : BufTy).Contents (Elt F) → (⟨S8000000, .f32⟩ : BufTy).Contents (Elt F)),
    nullary main_cst_4 (constant S_ .f32 0x3C23D70A#32),
    unary main_cst_4 main_v27 (broadcastInDim S8000000 ![] bcast_S_S8000000 : (⟨S_, .f32⟩ : BufTy).Contents (Elt F) → (⟨S8000000, .f32⟩ : BufTy).Contents (Elt F)),
    binary main_v26 main_v27 main_v28 (cmpf .olt : (⟨S8000000, .f32⟩ : BufTy).Contents (Elt F) → (⟨S8000000, .f32⟩ : BufTy).Contents (Elt F) → (⟨S8000000, .i1⟩ : BufTy).Contents (Elt F)),
    nullary main_cst_5 (constant S_ .f32 0x00000000#32),
    unary main_cst_5 main_v29 (broadcastInDim S8000000 ![] bcast_S_S8000000 : (⟨S_, .f32⟩ : BufTy).Contents (Elt F) → (⟨S8000000, .f32⟩ : BufTy).Contents (Elt F)),
    binary main_v25 main_v29 main_v30 (cmpf .oeq : (⟨S8000000, .f32⟩ : BufTy).Contents (Elt F) → (⟨S8000000, .f32⟩ : BufTy).Contents (Elt F) → (⟨S8000000, .i1⟩ : BufTy).Contents (Elt F)),
    binary main_v28 main_v30 main_v31 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v31) (TRef.of (T := ⟨S8000000, .f32⟩) main_v23) (TRef.of (T := ⟨S8000000, .f32⟩) main_v25) (TRef.of (T := ⟨S8000000, .f32⟩) main_v32) select,
    nullary main_cst_6 (constant S_ .f32 0x3F7D70A4#32),
    unary main_cst_6 main_v33 (broadcastInDim S8000000 ![] bcast_S_S8000000 : (⟨S_, .f32⟩ : BufTy).Contents (Elt F) → (⟨S8000000, .f32⟩ : BufTy).Contents (Elt F)),
    binary main_v23 main_v33 main_v34 (cmpf .ogt : (⟨S8000000, .f32⟩ : BufTy).Contents (Elt F) → (⟨S8000000, .f32⟩ : BufTy).Contents (Elt F) → (⟨S8000000, .i1⟩ : BufTy).Contents (Elt F)),
    nullary main_cst_7 (constant S_ .f32 0x3F8147AE#32),
    unary main_cst_7 main_v35 (broadcastInDim S8000000 ![] bcast_S_S8000000 : (⟨S_, .f32⟩ : BufTy).Contents (Elt F) → (⟨S8000000, .f32⟩ : BufTy).Contents (Elt F)),
    binary main_v23 main_v35 main_v36 (cmpf .olt : (⟨S8000000, .f32⟩ : BufTy).Contents (Elt F) → (⟨S8000000, .f32⟩ : BufTy).Contents (Elt F) → (⟨S8000000, .i1⟩ : BufTy).Contents (Elt F)),
    binary main_v34 main_v36 main_v37 (andi : (⟨S8000000, .i1⟩ : BufTy).Contents (Elt F) → (⟨S8000000, .i1⟩ : BufTy).Contents (Elt F) → (⟨S8000000, .i1⟩ : BufTy).Contents (Elt F)),
    nullary main_cst_8 (constant S_ .f32 0x3F800000#32),
    unary main_cst_8 main_v38 (broadcastInDim S8000000 ![] bcast_S_S8000000 : (⟨S_, .f32⟩ : BufTy).Contents (Elt F) → (⟨S8000000, .f32⟩ : BufTy).Contents (Elt F)),
    binary main_v32 main_v38 main_v39 (cmpf .oeq : (⟨S8000000, .f32⟩ : BufTy).Contents (Elt F) → (⟨S8000000, .f32⟩ : BufTy).Contents (Elt F) → (⟨S8000000, .i1⟩ : BufTy).Contents (Elt F)),
    binary main_v37 main_v39 main_v40 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v40) (TRef.of (T := ⟨S8000000, .f32⟩) main_v23) (TRef.of (T := ⟨S8000000, .f32⟩) main_v32) (TRef.of (T := ⟨S8000000, .f32⟩) main_v41) select,
    nullary main_c_9 (constantI S_ 32 1#32),
    unary main_c_9 main_v42 (broadcastInDim S1 ![] bcast_S_S1 : (⟨S_, .i32⟩ : BufTy).Contents (Elt F) → (⟨S1, .i32⟩ : BufTy).Contents (Elt F)),
    ternary main_v21 main_v42 main_v41 main_v43 ((fun x i u => Host.scatter scatter_S8000000x4_S1_S8000000_0_1_1_0 (fun _ b => b) x i u) : (⟨S8000000x4, .f32⟩ : BufTy).Contents (Elt F) → (⟨S1, .i32⟩ : BufTy).Contents (Elt F) → (⟨S8000000, .f32⟩ : BufTy).Contents (Elt F) → (⟨S8000000x4, .f32⟩ : BufTy).Contents (Elt F)),
    unary main_arg0 main_v44 ((extractStridedSlice S8000000x1 ![0, 1] · slices_S8000000x4_S8000000x1_0_1) : (⟨S8000000x4, .f32⟩ : BufTy).Contents (Elt F) → (⟨S8000000x1, .f32⟩ : BufTy).Contents (Elt F)),
    reshape main_v44 main_v45 rfl shapeCasts_S8000000x1_S8000000,
    unary main_arg0 main_v46 ((extractStridedSlice S8000000x1 ![0, 2] · slices_S8000000x4_S8000000x1_0_2) : (⟨S8000000x4, .f32⟩ : BufTy).Contents (Elt F) → (⟨S8000000x1, .f32⟩ : BufTy).Contents (Elt F)),
    reshape main_v46 main_v47 rfl shapeCasts_S8000000x1_S8000000,
    unary main_v43 main_v48 ((extractStridedSlice S8000000x1 ![0, 1] · slices_S8000000x4_S8000000x1_0_1) : (⟨S8000000x4, .f32⟩ : BufTy).Contents (Elt F) → (⟨S8000000x1, .f32⟩ : BufTy).Contents (Elt F)),
    reshape main_v48 main_v49 rfl shapeCasts_S8000000x1_S8000000,
    nullary main_cst_10 (constant S_ .f32 0x3F666666#32),
    unary main_cst_10 main_v50 (broadcastInDim S8000000 ![] bcast_S_S8000000 : (⟨S_, .f32⟩ : BufTy).Contents (Elt F) → (⟨S8000000, .f32⟩ : BufTy).Contents (Elt F)),
    binary main_v47 main_v50 main_v51 (cmpf .ogt : (⟨S8000000, .f32⟩ : BufTy).Contents (Elt F) → (⟨S8000000, .f32⟩ : BufTy).Contents (Elt F) → (⟨S8000000, .i1⟩ : BufTy).Contents (Elt F)),
    nullary main_cst_11 (constant S_ .f32 0x3F866666#32),
    unary main_cst_11 main_v52 (broadcastInDim S8000000 ![] bcast_S_S8000000 : (⟨S_, .f32⟩ : BufTy).Contents (Elt F) → (⟨S8000000, .f32⟩ : BufTy).Contents (Elt F)),
    binary main_v45 main_v52 main_v53 (mulf : (⟨S8000000, .f32⟩ : BufTy).Contents (Elt F) → (⟨S8000000, .f32⟩ : BufTy).Contents (Elt F) → (⟨S8000000, .f32⟩ : BufTy).Contents (Elt F)),
    binary main_v53 main_v49 main_v54 (cmpf .ogt : (⟨S8000000, .f32⟩ : BufTy).Contents (Elt F) → (⟨S8000000, .f32⟩ : BufTy).Contents (Elt F) → (⟨S8000000, .i1⟩ : BufTy).Contents (Elt F)),
    nullary main_cst_12 (constant S_ .f32 0x3F733333#32),
    unary main_cst_12 main_v55 (broadcastInDim S8000000 ![] bcast_S_S8000000 : (⟨S_, .f32⟩ : BufTy).Contents (Elt F) → (⟨S8000000, .f32⟩ : BufTy).Contents (Elt F)),
    binary main_v45 main_v55 main_v56 (mulf : (⟨S8000000, .f32⟩ : BufTy).Contents (Elt F) → (⟨S8000000, .f32⟩ : BufTy).Contents (Elt F) → (⟨S8000000, .f32⟩ : BufTy).Contents (Elt F)),
    binary main_v56 main_v49 main_v57 (cmpf .olt : (⟨S8000000, .f32⟩ : BufTy).Contents (Elt F) → (⟨S8000000, .f32⟩ : BufTy).Contents (Elt F) → (⟨S8000000, .i1⟩ : BufTy).Contents (Elt F)),
    binary main_v54 main_v57 main_v58 (andi : (⟨S8000000, .i1⟩ : BufTy).Contents (Elt F) → (⟨S8000000, .i1⟩ : BufTy).Contents (Elt F) → (⟨S8000000, .i1⟩ : BufTy).Contents (Elt F)),
    binary main_v51 main_v58 main_v59 (ori : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v59) (TRef.of (T := ⟨S8000000, .f32⟩) main_v45) (TRef.of (T := ⟨S8000000, .f32⟩) main_v49) (TRef.of (T := ⟨S8000000, .f32⟩) main_v60) select,
    nullary main_c_13 (constantI S_ 32 1#32),
    unary main_c_13 main_v61 (broadcastInDim S1 ![] bcast_S_S1 : (⟨S_, .i32⟩ : BufTy).Contents (Elt F) → (⟨S1, .i32⟩ : BufTy).Contents (Elt F)),
    ternary main_v43 main_v61 main_v60 main_v62 ((fun x i u => Host.scatter scatter_S8000000x4_S1_S8000000_0_1_1_0 (fun _ b => b) x i u) : (⟨S8000000x4, .f32⟩ : BufTy).Contents (Elt F) → (⟨S1, .i32⟩ : BufTy).Contents (Elt F) → (⟨S8000000, .f32⟩ : BufTy).Contents (Elt F) → (⟨S8000000x4, .f32⟩ : BufTy).Contents (Elt F)),
    binary main_arg0 main_v62 main_v63 (subf : (⟨S8000000x4, .f32⟩ : BufTy).Contents (Elt F) → (⟨S8000000x4, .f32⟩ : BufTy).Contents (Elt F) → (⟨S8000000x4, .f32⟩ : BufTy).Contents (Elt F)),
    binary main_v63 main_v63 main_v64 (mulf : (⟨S8000000x4, .f32⟩ : BufTy).Contents (Elt F) → (⟨S8000000x4, .f32⟩ : BufTy).Contents (Elt F) → (⟨S8000000x4, .f32⟩ : BufTy).Contents (Elt F)),
    nullary main_cst_14 (constant S_ .f32 0x00000000#32),
    binary main_v64 main_cst_14 main_v65 ((fun x v => Host.reduceAdd x v reducesTo_S8000000x4_S_d0_1 h_S_) : (⟨S8000000x4, .f32⟩ : BufTy).Contents (Elt F) → (⟨S_, .f32⟩ : BufTy).Contents (Elt F) → (⟨S_, .f32⟩ : BufTy).Contents (Elt F)),
    nullary main_cst_15 (constant S_ .f32 0x4BF42400#32),
    binary main_v65 main_cst_15 main_v66 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., binary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., ternary_bufs_sub .., nullary_bufs_sub .., unary_bufs_sub .., ternary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., binary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., ternary_bufs_sub .., nullary_bufs_sub .., unary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., ternary_bufs_sub .., nullary_bufs_sub .., unary_bufs_sub .., ternary_bufs_sub .., binary_bufs_sub .., binary_bufs_sub .., nullary_bufs_sub .., binary_bufs_sub .., nullary_bufs_sub .., binary_bufs_sub ..⟩

end Cert.ReferenceIdeal.RangeLossRef

end
-- ==== Proof.LibScatterSet.lean ====
/-
  A scatter whose combining function keeps the update (`x.at[...].set(u)`), read at an index.

  The scatter is a left fold over the update indices, in row-major order: each step overwrites the entry at
  the place its update index lands on. Suppose every update index `j` lands inside the operand, at `g j`, and
  `g` is injective. Then no entry is written twice, so the order of the fold does not matter: the entry at
  `g j` ends as the update at `j`, and an entry that is no `g j` keeps the operand's value.
-/
import Idealize.ShloMosaic.PureOps.ShapeOps

namespace LibScatterSet

open Idealize.ShloMosaic

variable {s si u : Shape} {α : Type} {w : Nat}

variable (d : ScatterDims s si u) (x : s.Idx → α) (idx : IVec si w) (upd : u.Idx → α)
  (g : u.Idx → s.Idx) (hg : ∀ j, d.resultIdx? j idx = some (g j))

include hg in
/-- The scatter as a fold of plain overwrites at the places `g` names. -/
private theorem scatter_eq_foldl :
    Host.scatter d (fun _ b => b) x idx upd
      = (List.finRange u.numel).foldl (fun r n => fun i' => if i' = g (u.rowMajor.symm n) then upd (u.rowMajor.symm n) else r i') x := by
  unfold Host.scatter
  refine congrArg (fun f => List.foldl f x (List.finRange u.numel)) ?_
  funext r n
  rw [hg]

include hg in
/-- An entry no update index lands on keeps the operand's value. -/
theorem scatter_set_of_not_mem (i : s.Idx) (hi : ∀ j, g j ≠ i) :
    Host.scatter d (fun _ b => b) x idx upd i = x i := by
  rw [scatter_eq_foldl d x idx upd g hg]
  generalize List.finRange u.numel = l
  induction l generalizing x with
  | nil => rfl
  | cons a t ih =>
    rw [List.foldl_cons, ih]
    exact if_neg (fun h => hi _ h.symm)

include hg in
/-- The entry update index `j` lands on ends as the update at `j`, when no two update indices land on one entry. -/
theorem scatter_set_of_mem (hinj : Function.Injective g) (j : u.Idx) :
    Host.scatter d (fun _ b => b) x idx upd (g j) = upd j := by
  rw [scatter_eq_foldl d x idx upd g hg]
  have hnd : (List.finRange u.numel).Nodup := List.nodup_finRange _
  have hmem : u.rowMajor j ∈ List.finRange u.numel := List.mem_finRange _
  have key : ∀ (l : List (Fin u.numel)), l.Nodup → ∀ (r : s.Idx → α) (n : Fin u.numel), n ∈ l →
      (l.foldl (fun r n => fun i' => if i' = g (u.rowMajor.symm n) then upd (u.rowMajor.symm n) else r i') r)
        (g (u.rowMajor.symm n)) = upd (u.rowMajor.symm n) := by
    intro l
    induction l with
    | nil => intro _ _ n hn; exact absurd hn List.not_mem_nil
    | cons a t ih =>
      intro hl r n hn
      rw [List.foldl_cons]
      have hat : a ∉ t := (List.nodup_cons.mp hl).1
      have ht : t.Nodup := (List.nodup_cons.mp hl).2
      rcases List.mem_cons.mp hn with rfl | hnt
      · have keep : ∀ (l : List (Fin u.numel)) (r : s.Idx → α), n ∉ l →
            (l.foldl (fun r n => fun i' => if i' = g (u.rowMajor.symm n) then upd (u.rowMajor.symm n) else r i') r)
              (g (u.rowMajor.symm n)) = r (g (u.rowMajor.symm n)) := by
          intro l
          induction l with
          | nil => intro _ _; rfl
          | cons b t' ih' =>
            intro r hb
            rw [List.foldl_cons, ih' _ (fun h => hb (List.mem_cons_of_mem _ h))]
            refine if_neg (fun h => hb ?_)
            have := u.rowMajor.symm.injective (hinj h)
            exact this ▸ List.mem_cons_self
        rw [keep t _ hat]
        exact if_pos rfl
      · exact ih ht _ n hnt
  have := key _ hnd x (u.rowMajor j) hmem
  rwa [Equiv.symm_apply_apply] at this

end LibScatterSet
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.RangeLossSpec.lean ====
/-
  The range loss, as mathematics.

  A row holds four predictions p₀ … p₃ and four targets t₀ … t₃. The target is first adjusted:
    * in columns 0 and 1, a target that is exactly 0 beside a prediction within 0.01 of 0 is replaced by the
      prediction, and then a target that is exactly 1 beside a prediction strictly between 0.99 and 1.01 is
      replaced by the prediction (`near`);
    * in column 1 the result is then replaced by the prediction when p₂ > 0.9, or when the result lies strictly
      between 0.95·p₁ and 1.05·p₁ (`snap`);
    * columns 2 and 3 are kept.
  The loss is the sum over all rows and columns of (p − adjusted t)², divided by the number of entries.

  The sum over the 8 000 000 rows may be taken 10 000 rows at a time, in 800 blocks: addition is commutative and
  associative, and nothing else is needed (`sum_rows_blocked`), so infinite entries would do no harm here.
-/
import Idealize.ShloMosaic.PureOps.Ideal
import Idealize.ShloMosaic.Lib.ValueIdx
import proofs.«116874_j21595095564576_2_alg».proof.Proof.LibERealMatrix

noncomputable section

namespace Cert.RangeLoss

open Idealize.ShloMosaic Idealize.ShloMosaic.ValueIdx

section Row
variable {F : FTy → Type} [FloatOps F]

/-- A target `t` beside its prediction `p`: `t = 0` with `|p| < 0.01` becomes `p`; then a value `= 1` with
    `0.99 < p < 1.01` becomes `p`. The constants are the nearest single-precision numbers. -/
def near (p t : F .f32) : F .f32 :=
  Scalar.select
    (IntOp.andi
      (IntOp.andi (FloatOps.cmpf .ogt p (FloatOps.ofBits .f32 0x3F7D70A4#32)) (FloatOps.cmpf .olt p (FloatOps.ofBits .f32 0x3F8147AE#32)))
      (FloatOps.cmpf .oeq
        (Scalar.select
          (IntOp.andi (FloatOps.cmpf .olt (FloatOps.absf p) (FloatOps.ofBits .f32 0x3C23D70A#32))
            (FloatOps.cmpf .oeq t (FloatOps.ofBits .f32 0x00000000#32)))
          p t)
        (FloatOps.ofBits .f32 0x3F800000#32)))
    p
    (Scalar.select
      (IntOp.andi (FloatOps.cmpf .olt (FloatOps.absf p) (FloatOps.ofBits .f32 0x3C23D70A#32))
        (FloatOps.cmpf .oeq t (FloatOps.ofBits .f32 0x00000000#32)))
      p t)

/-- The column-1 target `t` becomes the prediction `p₁` when `p₂ > 0.9` or `0.95·p₁ < t < 1.05·p₁`. -/
def snap (p₁ p₂ t : F .f32) : F .f32 :=
  Scalar.select
    (IntOp.ori (FloatOps.cmpf .ogt p₂ (FloatOps.ofBits .f32 0x3F666666#32))
      (IntOp.andi (FloatOps.cmpf .ogt (FloatOps.mulf p₁ (FloatOps.ofBits .f32 0x3F866666#32)) t)
        (FloatOps.cmpf .olt (FloatOps.mulf p₁ (FloatOps.ofBits .f32 0x3F733333#32)) t)))
    p₁ t

/-- The adjusted target of a row, column by column. -/
def target (p t : Fin 4 → F .f32) : Fin 4 → F .f32
  | 0 => near (p 0) (t 0)
  | 1 => snap (p 1) (p 2) (near (p 1) (t 1))
  | 2 => t 2
  | 3 => t 3

/-- The squared error of a row at a column. -/
def sqErr (p t : Fin 4 → F .f32) (c : Fin 4) : F .f32 :=
  FloatOps.mulf (FloatOps.subf (p c) (target p t c)) (FloatOps.subf (p c) (target p t c))

end Row

/-- Row `r` of an array with four columns. -/
def row {α : Type} {n : ℕ} (X : (⟨2, ![n, 4]⟩ : Shape).Idx → α) (r : Fin n) : Fin 4 → α := fun c => X (ix2 r c)

/-- The squared error of two arrays at an entry. -/
def sqAt {n : ℕ} (P T : (⟨2, ![n, 4]⟩ : Shape).Idx → Ideal .f32) (i : (⟨2, ![n, 4]⟩ : Shape).Idx) : Ideal .f32 :=
  sqErr (row P (i 0)) (row T (i 0)) (i 1)

/-- The sum of the squared errors over all entries of two arrays of `n` rows. -/
def sumSq {n : ℕ} (P T : (⟨2, ![n, 4]⟩ : Shape).Idx → Ideal .f32) : EReal :=
  ∑ r : Fin n, ∑ c : Fin 4, sqErr (row P r) (row T r) c

/-- Rows `10000·k … 10000·k + 9999` of an array of 8 000 000 rows. -/
def rowBlock {α : Type} (X : (⟨2, ![8000000, 4]⟩ : Shape).Idx → α) (k : Fin 800) :
    (⟨2, ![10000, 4]⟩ : Shape).Idx → α :=
  fun j => X (ix2 ⟨k.val * 10000 + (j 0).val, by have := k.isLt; have := idx2_lt0 j; omega⟩ (j 1))

/-- A sum over 8 000 000 rows is the sum over 800 blocks of the sums over the 10 000 rows of a block. -/
theorem sum_rows_blocked {M : Type*} [AddCommMonoid M] (g : Fin 8000000 → M) :
    ∑ R, g R = ∑ k : Fin 800, ∑ r : Fin 10000,
      g ⟨k.val * 10000 + r.val, by have := k.isLt; have := r.isLt; omega⟩ := by
  have h := LibERealMatrix.sum_fin_mul 800 10000 (fun x : Fin (800 * 10000) => g (x.cast (by norm_num)))
  have e : ∑ R, g R = ∑ x : Fin (800 * 10000), g (x.cast (by norm_num)) :=
    (Fintype.sum_equiv (finCongr (by norm_num : 800 * 10000 = 8000000)) _ _ (fun _ => rfl)).symm
  rw [e, h]
  refine Finset.sum_congr rfl fun k _ => Finset.sum_congr rfl fun r _ => congrArg g (Fin.ext ?_)
  show r.val + 10000 * k.val = k.val * 10000 + r.val
  omega

/-- The squared errors of the whole arrays, summed, are the sum over the 800 row blocks of each block's sum. -/
theorem sumSq_blocked (P T : (⟨2, ![8000000, 4]⟩ : Shape).Idx → Ideal .f32) :
    sumSq P T = ∑ k : Fin 800, sumSq (rowBlock P k) (rowBlock T k) := by
  unfold sumSq
  rw [sum_rows_blocked]
  rfl

/-- THE LOSS: the sum of the squared errors divided by 32 000 000, the number of entries (exactly representable in
    single precision). Both programs divide by the same constant with the same host division, so the quotient is never
    opened. -/
def loss (P T : (⟨2, ![8000000, 4]⟩ : Shape).Idx → Ideal .f32) : Ideal .f32 :=
  FloatOps.hostDivf (sumSq P T) (FloatOps.ofBits .f32 0x4BF42400#32)

/-- The sum over every entry of the arrays, as the reduction over both axes takes it. -/
theorem sum_sqAt (P T : (⟨2, ![8000000, 4]⟩ : Shape).Idx → Ideal .f32) :
    ∑ i, sqAt P T i = sumSq P T := by
  rw [sum_idx2]
  rfl

end Cert.RangeLoss

end
-- ==== Proof.RefValue.lean ====
/-
  What the reference computes, as a function of its two argument arrays, and that function read at an entry.

  The program takes a column of an array as a vector (a slice of width one, then a reshape), adjusts the target
  column by column with whole-vector compares and selects, and writes each adjusted column back into the target
  array with a scatter whose one index names the column (`t.at[:, k].set(v)`). Such a scatter sends update index
  `r` to the entry `(r, k)`: distinct rows go to distinct entries, so the entry `(r, k)` ends as `v r` and every
  entry of another column is kept. Read at the entry `(r, c)`, the adjusted target array is therefore the row-level
  adjusted target of row `r` at column `c`, and the result is the sum of the squared errors over all entries,
  divided by their number.
-/
import proofs.«116874_j21595095564576_2_alg».proof.Proof.Gen.ReferenceIdeal
import proofs.«116874_j21595095564576_2_alg».proof.Proof.LibScatterSet
import proofs.«116874_j21595095564576_2_alg».proof.Proof.RangeLossSpec
import Idealize.ShloMosaic.Lib.ValueIdx
import Idealize.ShloMosaic.Lib.Pipeline.Value
import Idealize.ShloMosaic.PureOps.Ideal.Laws

noncomputable section

namespace Cert.ReferenceIdeal.RangeLossRef

open Cert.ReferenceIdeal Cert.ReferenceIdeal.Gen Idealize.ShloMosaic Idealize.ShloMosaic.ValueIdx Cert.RangeLoss

/-! ## Writing a column: where an update index lands -/

/-- The program's one scatter record: updates of shape [8000000] written along axis 0, at the column its one index names. -/
abbrev colWrite : ScatterDims S8000000x4 S1 S8000000 := scatter_S8000000x4_S1_S8000000_0_1_1_0

theorem start_row (j : S8000000.Idx) (idx : IVec S1 32) : colWrite.start j idx 0 = 0 := by
  unfold ScatterDims.start
  exact dif_neg (by decide)

theorem start_col (j : S8000000.Idx) (idx : IVec S1 32) (k : BitVec 32) (hidx : ∀ i, idx i = k) :
    colWrite.start j idx 1 = k.toInt := by
  unfold ScatterDims.start
  rw [dif_pos (by decide), hidx]

theorem window_row (j : S8000000.Idx) : colWrite.window j 0 = (j 0).val := by
  unfold ScatterDims.window
  rw [dif_pos (by decide)]
  rfl

theorem window_col (j : S8000000.Idx) : colWrite.window j 1 = 0 := by
  unfold ScatterDims.window
  exact dif_neg (by decide)

/-- Update index `r` lands on the entry `(r, c)` when the scatter's one index is the column `c`. -/
theorem lands (idx : IVec S1 32) (k : BitVec 32) (c : Fin 4) (hk : k.toInt = (c.val : ℤ)) (hidx : ∀ i, idx i = k)
    (j : S8000000.Idx) : colWrite.resultIdx? j idx = some (ix2 (j 0) c) := by
  have h0 : (j 0).val < 8000000 := (j 0).isLt
  have hc : c.val < 4 := c.isLt
  have h : ∀ a, 0 ≤ colWrite.start j idx a + colWrite.window j a
      ∧ colWrite.start j idx a + colWrite.window j a < S8000000x4.size a := by
    intro a
    match a with
    | ⟨0, _⟩ =>
      show 0 ≤ colWrite.start j idx 0 + colWrite.window j 0 ∧ colWrite.start j idx 0 + colWrite.window j 0 < (8000000 : ℕ)
      rw [start_row, window_row]; omega
    | ⟨1, _⟩ =>
      show 0 ≤ colWrite.start j idx 1 + colWrite.window j 1 ∧ colWrite.start j idx 1 + colWrite.window j 1 < (4 : ℕ)
      rw [start_col j idx k hidx, window_col, hk]; omega
  unfold ScatterDims.resultIdx?
  rw [dif_pos h]
  refine congrArg some (funext fun a => Fin.ext ?_)
  match a with
  | ⟨0, _⟩ =>
    show (colWrite.start j idx 0 + colWrite.window j 0).toNat = (j 0).val
    rw [start_row, window_row]; omega
  | ⟨1, _⟩ =>
    show (colWrite.start j idx 1 + colWrite.window j 1).toNat = c.val
    rw [start_col j idx k hidx, window_col, hk]; omega

/-- An array with column `c` replaced by the vector `v`, read at an entry. -/
theorem colWrite_apply {α : Type} (X : S8000000x4.Idx → α) (idx : IVec S1 32) (v : S8000000.Idx → α)
    (k : BitVec 32) (c : Fin 4) (hk : k.toInt = (c.val : ℤ)) (hidx : ∀ i, idx i = k) (r : Fin 8000000) (c' : Fin 4) :
    Host.scatter colWrite (fun _ b => b) X idx v (ix2 r c') = if c' = c then v (ix1 r) else X (ix2 r c') := by
  by_cases hcc : c' = c
  · subst hcc
    rw [if_pos rfl]
    refine LibScatterSet.scatter_set_of_mem colWrite X idx v (fun j => ix2 (j 0) c') (lands idx k c' hk hidx) ?_ (ix1 r)
    intro j j' hjj
    have := congrFun hjj 0
    rw [eq_ix1 j, eq_ix1 j']
    exact congrArg ix1 this
  · rw [if_neg hcc]
    refine LibScatterSet.scatter_set_of_not_mem colWrite X idx v (fun j => ix2 (j 0) c) (lands idx k c hk hidx) _ ?_
    intro j hj
    exact hcc (congrFun hj 1).symm

/-! ## The program's stages, as whole-array functions -/

section Stages
variable {F : FTy → Type} [FloatOps F]

/-- Column `k` of an array as a vector: the slice `[:, k:k+1]`, reshaped. -/
def col0 (X : (⟨S8000000x4, .f32⟩ : BufTy).Contents (Elt F)) : (⟨S8000000, .f32⟩ : BufTy).Contents (Elt F) :=
  shapeCast _ (extractStridedSlice S8000000x1 ![0, 0] X slices_S8000000x4_S8000000x1_0_0) shapeCasts_S8000000x1_S8000000
def col1 (X : (⟨S8000000x4, .f32⟩ : BufTy).Contents (Elt F)) : (⟨S8000000, .f32⟩ : BufTy).Contents (Elt F) :=
  shapeCast _ (extractStridedSlice S8000000x1 ![0, 1] X slices_S8000000x4_S8000000x1_0_1) shapeCasts_S8000000x1_S8000000
def col2 (X : (⟨S8000000x4, .f32⟩ : BufTy).Contents (Elt F)) : (⟨S8000000, .f32⟩ : BufTy).Contents (Elt F) :=
  shapeCast _ (extractStridedSlice S8000000x1 ![0, 2] X slices_S8000000x4_S8000000x1_0_2) shapeCasts_S8000000x1_S8000000

/-- A constant, as a vector. -/
def bc (w : BitVec 32) : (⟨S8000000, .f32⟩ : BufTy).Contents (Elt F) :=
  broadcastInDim S8000000 ![] bcast_S_S8000000 (constant S_ .f32 w)

/-- The first replacement, on whole vectors: a target `= 0` beside `|p| < 0.01` becomes `p`. -/
def zeroV (p t : (⟨S8000000, .f32⟩ : BufTy).Contents (Elt F)) : (⟨S8000000, .f32⟩ : BufTy).Contents (Elt F) :=
  select (andi (cmpf .olt (Host.absf p) (bc 0x3C23D70A#32)) (cmpf .oeq t (bc 0x00000000#32))) p t

/-- Both replacements, on whole vectors. -/
def nearV (p t : (⟨S8000000, .f32⟩ : BufTy).Contents (Elt F)) : (⟨S8000000, .f32⟩ : BufTy).Contents (Elt F) :=
  select (andi (andi (cmpf .ogt p (bc 0x3F7D70A4#32)) (cmpf .olt p (bc 0x3F8147AE#32))) (cmpf .oeq (zeroV p t) (bc 0x3F800000#32)))
    p (zeroV p t)

/-- The confidence-range replacement, on whole vectors. -/
def snapV (p₁ p₂ t : (⟨S8000000, .f32⟩ : BufTy).Contents (Elt F)) : (⟨S8000000, .f32⟩ : BufTy).Contents (Elt F) :=
  select (ori (cmpf .ogt p₂ (bc 0x3F666666#32))
      (andi (cmpf .ogt (mulf p₁ (bc 0x3F866666#32)) t) (cmpf .olt (mulf p₁ (bc 0x3F733333#32)) t)))
    p₁ t

/-- An array with column `k` replaced by a vector. -/
def setCol (k : BitVec 32) (X : (⟨S8000000x4, .f32⟩ : BufTy).Contents (Elt F)) (v : (⟨S8000000, .f32⟩ : BufTy).Contents (Elt F)) :
    (⟨S8000000x4, .f32⟩ : BufTy).Contents (Elt F) :=
  Host.scatter scatter_S8000000x4_S1_S8000000_0_1_1_0 (fun _ b => b) X (broadcastInDim S1 ![] bcast_S_S1 (constantI S_ 32 k)) v

/-- The target after column 0's adjustment, -/
def adj0 (P T : (⟨S8000000x4, .f32⟩ : BufTy).Contents (Elt F)) : (⟨S8000000x4, .f32⟩ : BufTy).Contents (Elt F) :=
  setCol 0#32 T (nearV (col0 P) (col0 T))
/-- after column 1's, -/
def adj1 (P T : (⟨S8000000x4, .f32⟩ : BufTy).Contents (Elt F)) : (⟨S8000000x4, .f32⟩ : BufTy).Contents (Elt F) :=
  setCol 1#32 (adj0 P T) (nearV (col1 P) (col1 (adj0 P T)))
/-- and after the confidence-range replacement in column 1. -/
def adj2 (P T : (⟨S8000000x4, .f32⟩ : BufTy).Contents (Elt F)) : (⟨S8000000x4, .f32⟩ : BufTy).Contents (Elt F) :=
  setCol 1#32 (adj1 P T) (snapV (col1 P) (col2 P) (col1 (adj1 P T)))

/-- The difference array, -/
def diff (P T : (⟨S8000000x4, .f32⟩ : BufTy).Contents (Elt F)) : (⟨S8000000x4, .f32⟩ : BufTy).Contents (Elt F) :=
  subf P (adj2 P T)

/-- and THE RESULT: the mean of its squares, as the program takes it. -/
def result (P T : (⟨S8000000x4, .f32⟩ : BufTy).Contents (Elt F)) : (⟨S_, .f32⟩ : BufTy).Contents (Elt F) :=
  Host.divf (Host.reduceAdd (mulf (diff P T) (diff P T)) (constant S_ .f32 0x00000000#32) reducesTo_S8000000x4_S_d0_1 h_S_)
    (constant S_ .f32 0x4BF42400#32)

end Stages

/-! ## The stages read at an entry, on the extended reals -/

theorem col0_apply {α : Type} (X : S8000000x4.Idx → α) (r : Fin 8000000) :
    shapeCast S8000000 (extractStridedSlice S8000000x1 ![0, 0] X slices_S8000000x4_S8000000x1_0_0) shapeCasts_S8000000x1_S8000000 (ix1 r)
      = X (ix2 r 0) := by
  refine (shapeCast_apply _ shapeCasts_S8000000x1_S8000000 (ix1 r) (ix2 r 0) ?_).trans ?_
  · rw [Shape.rowMajor_val_two, Shape.rowMajor_val_one]; show r.val * 1 + 0 = r.val; omega
  · exact extractStridedSlice_apply ![0, 0] X slices_S8000000x4_S8000000x1_0_0 (ix2 r 0) (ix2 r 0) (fun a => match a with
      | ⟨0, _⟩ => by show r.val = 0 + r.val; omega
      | ⟨1, _⟩ => by show (0 : ℕ) = 0 + 0; omega)

theorem col1_apply {α : Type} (X : S8000000x4.Idx → α) (r : Fin 8000000) :
    shapeCast S8000000 (extractStridedSlice S8000000x1 ![0, 1] X slices_S8000000x4_S8000000x1_0_1) shapeCasts_S8000000x1_S8000000 (ix1 r)
      = X (ix2 r 1) := by
  refine (shapeCast_apply _ shapeCasts_S8000000x1_S8000000 (ix1 r) (ix2 r 0) ?_).trans ?_
  · rw [Shape.rowMajor_val_two, Shape.rowMajor_val_one]; show r.val * 1 + 0 = r.val; omega
  · exact extractStridedSlice_apply ![0, 1] X slices_S8000000x4_S8000000x1_0_1 (ix2 r 0) (ix2 r 1) (fun a => match a with
      | ⟨0, _⟩ => by show r.val = 0 + r.val; omega
      | ⟨1, _⟩ => by show (1 : ℕ) = 1 + 0; omega)

theorem col2_apply {α : Type} (X : S8000000x4.Idx → α) (r : Fin 8000000) :
    shapeCast S8000000 (extractStridedSlice S8000000x1 ![0, 2] X slices_S8000000x4_S8000000x1_0_2) shapeCasts_S8000000x1_S8000000 (ix1 r)
      = X (ix2 r 2) := by
  refine (shapeCast_apply _ shapeCasts_S8000000x1_S8000000 (ix1 r) (ix2 r 0) ?_).trans ?_
  · rw [Shape.rowMajor_val_two, Shape.rowMajor_val_one]; show r.val * 1 + 0 = r.val; omega
  · exact extractStridedSlice_apply ![0, 2] X slices_S8000000x4_S8000000x1_0_2 (ix2 r 0) (ix2 r 2) (fun a => match a with
      | ⟨0, _⟩ => by show r.val = 0 + r.val; omega
      | ⟨1, _⟩ => by show (2 : ℕ) = 2 + 0; omega)

/-- The whole-vector replacements are the row-level ones, entry by entry (every operation is pointwise, and on the
    extended reals the host's absolute value is the absolute value). -/
theorem nearV_apply (p t : S8000000.Idx → Ideal .f32) (i : S8000000.Idx) :
    nearV (F := Ideal) p t i = near (p i) (t i) := rfl

theorem snapV_apply (p₁ p₂ t : S8000000.Idx → Ideal .f32) (i : S8000000.Idx) :
    snapV (F := Ideal) p₁ p₂ t i = snap (p₁ i) (p₂ i) (t i) := rfl

theorem setCol_apply (k : BitVec 32) (c : Fin 4) (hk : k.toInt = (c.val : ℤ)) (X : S8000000x4.Idx → Ideal .f32)
    (v : S8000000.Idx → Ideal .f32) (r : Fin 8000000) (c' : Fin 4) :
    setCol (F := Ideal) k X v (ix2 r c') = if c' = c then v (ix1 r) else X (ix2 r c') :=
  colWrite_apply X _ v k c hk (fun _ => rfl) r c'

/-- After column 0's adjustment: entry `(r, 0)` is adjusted, the other columns are the target's. -/
theorem adj0_apply (P T : S8000000x4.Idx → Ideal .f32) (r : Fin 8000000) (c : Fin 4) :
    adj0 (F := Ideal) P T (ix2 r c) = if c = 0 then near (P (ix2 r 0)) (T (ix2 r 0)) else T (ix2 r c) := by
  unfold adj0
  refine (setCol_apply 0#32 0 (by decide) T _ r c).trans ?_
  rw [nearV_apply]
  unfold col0
  rw [col0_apply, col0_apply]

/-- After column 1's: entry `(r, 1)` is adjusted against what column 0's step left there. -/
theorem adj1_apply (P T : S8000000x4.Idx → Ideal .f32) (r : Fin 8000000) (c : Fin 4) :
    adj1 (F := Ideal) P T (ix2 r c) = if c = 1 then near (P (ix2 r 1)) (adj0 (F := Ideal) P T (ix2 r 1)) else adj0 (F := Ideal) P T (ix2 r c) := by
  unfold adj1
  refine (setCol_apply 1#32 1 (by decide) _ _ r c).trans ?_
  rw [nearV_apply]
  unfold col1
  rw [col1_apply, col1_apply]

/-- After the confidence-range replacement: entry `(r, 1)` once more. -/
theorem adj2_apply (P T : S8000000x4.Idx → Ideal .f32) (r : Fin 8000000) (c : Fin 4) :
    adj2 (F := Ideal) P T (ix2 r c)
      = if c = 1 then snap (P (ix2 r 1)) (P (ix2 r 2)) (adj1 (F := Ideal) P T (ix2 r 1)) else adj1 (F := Ideal) P T (ix2 r c) := by
  unfold adj2
  refine (setCol_apply 1#32 1 (by decide) _ _ r c).trans ?_
  rw [snapV_apply]
  unfold col1 col2
  rw [col1_apply, col2_apply, col1_apply]

/-- The adjusted target array, at the entry `(r, c)`, is the adjusted target of row `r` at column `c`. -/
theorem adj2_eq_target (P T : S8000000x4.Idx → Ideal .f32) (r : Fin 8000000) (c : Fin 4) :
    adj2 (F := Ideal) P T (ix2 r c) = target (row P r) (row T r) c := by
  rw [adj2_apply]
  match c with
  | 0 => rw [if_neg (by decide), adj1_apply, if_neg (by decide), adj0_apply, if_pos rfl]; rfl
  | 1 => rw [if_pos rfl, adj1_apply, if_pos rfl, adj0_apply, if_neg (by decide)]; rfl
  | 2 => rw [if_neg (by decide), adj1_apply, if_neg (by decide), adj0_apply, if_neg (by decide)]; rfl
  | 3 => rw [if_neg (by decide), adj1_apply, if_neg (by decide), adj0_apply, if_neg (by decide)]; rfl

/-- THE REFERENCE'S VALUE: the loss of its two argument arrays. The reduction over both axes is the initial value,
    zero, plus the sum over every entry; entry by entry the squared difference is the row's squared error. -/
theorem result_eq (P T : S8000000x4.Idx → Ideal .f32) : result (F := Ideal) P T = fun _ => loss P T := by
  funext i
  unfold result Host.divf Host.reduceAdd
  dsimp only
  rw [Ideal.hostReduceAdd_def, Ideal.hostReduceAdd_total _ (fun b => b.elim0), constant_apply, constant_apply,
    Ideal.ofBits_zero_f32, zero_add]
  unfold loss
  rw [← sum_sqAt]
  refine congrArg (fun s => FloatOps.hostDivf s (FloatOps.ofBits .f32 0x4BF42400#32)) (Finset.sum_congr rfl fun j _ => ?_)
  obtain ⟨r, c, rfl⟩ : ∃ (r : Fin 8000000) (c : Fin 4), j = ix2 r c := ⟨j 0, j 1, eq_ix2 j⟩
  show FloatOps.mulf (FloatOps.subf (P (ix2 r c)) (adj2 (F := Ideal) P T (ix2 r c)))
      (FloatOps.subf (P (ix2 r c)) (adj2 (F := Ideal) P T (ix2 r c))) = sqErr (row P r) (row T r) c
  rw [adj2_eq_target]
  rfl

end Cert.ReferenceIdeal.RangeLossRef

end
-- ==== Proof.RefSegments.lean ====
/-
  The reference's @main cut at its three column writes: four consecutive segments of host operations — up to the
  write of the adjusted column 0, up to the write of the adjusted column 1, up to the write of the column after the
  confidence-range replacement, and the closing subtraction, square, sum and quotient. The whole list is their
  concatenation, so the contents after the program are the contents after the fourth segment from those after the
  third, and so on back; each segment is read on its own, from ANY starting contents.
-/
import proofs.«116874_j21595095564576_2_alg».proof.Proof.RefOps
import proofs.«116874_j21595095564576_2_alg».proof.Proof.RefValue
import Idealize.ShloMosaic.Lib.Pipeline.Frame

noncomputable section

namespace Cert.ReferenceIdeal.RangeLossRef

open Cert.ReferenceIdeal Cert.ReferenceIdeal.Gen Idealize.ShloMosaic Idealize.ShloMosaic.TcCoe Idealize.SL.Sem Idealize.ShloMosaic.StableHlo

variable {F : FTy → Type} [FloatOps F]

/-- Segment 1 of @main's operations. -/
def ops1 : List (HloOp τ sig (Elt F)) :=
  [ unary main_arg0 main_v0 ((extractStridedSlice S8000000x1 ![0, 0] · slices_S8000000x4_S8000000x1_0_0) : (⟨S8000000x4, .f32⟩ : BufTy).Contents (Elt F) → (⟨S8000000x1, .f32⟩ : BufTy).Contents (Elt F)),
    reshape main_v0 main_v1 rfl shapeCasts_S8000000x1_S8000000,
    unary main_arg1 main_v2 ((extractStridedSlice S8000000x1 ![0, 0] · slices_S8000000x4_S8000000x1_0_0) : (⟨S8000000x4, .f32⟩ : BufTy).Contents (Elt F) → (⟨S8000000x1, .f32⟩ : BufTy).Contents (Elt F)),
    reshape main_v2 main_v3 rfl shapeCasts_S8000000x1_S8000000,
    unary main_v1 main_v4 (Host.absf : (⟨S8000000, .f32⟩ : BufTy).Contents (Elt F) → (⟨S8000000, .f32⟩ : BufTy).Contents (Elt F)),
    nullary main_cst (constant S_ .f32 0x3C23D70A#32),
    unary main_cst main_v5 (broadcastInDim S8000000 ![] bcast_S_S8000000 : (⟨S_, .f32⟩ : BufTy).Contents (Elt F) → (⟨S8000000, .f32⟩ : BufTy).Contents (Elt F)),
    binary main_v4 main_v5 main_v6 (cmpf .olt : (⟨S8000000, .f32⟩ : BufTy).Contents (Elt F) → (⟨S8000000, .f32⟩ : BufTy).Contents (Elt F) → (⟨S8000000, .i1⟩ : BufTy).Contents (Elt F)),
    nullary main_cst_0 (constant S_ .f32 0x00000000#32),
    unary main_cst_0 main_v7 (broadcastInDim S8000000 ![] bcast_S_S8000000 : (⟨S_, .f32⟩ : BufTy).Contents (Elt F) → (⟨S8000000, .f32⟩ : BufTy).Contents (Elt F)),
    binary main_v3 main_v7 main_v8 (cmpf .oeq : (⟨S8000000, .f32⟩ : BufTy).Contents (Elt F) → (⟨S8000000, .f32⟩ : BufTy).Contents (Elt F) → (⟨S8000000, .i1⟩ : BufTy).Contents (Elt F)),
    binary main_v6 main_v8 main_v9 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v9) (TRef.of (T := ⟨S8000000, .f32⟩) main_v1) (TRef.of (T := ⟨S8000000, .f32⟩) main_v3) (TRef.of (T := ⟨S8000000, .f32⟩) main_v10) select,
    nullary main_cst_1 (constant S_ .f32 0x3F7D70A4#32),
    unary main_cst_1 main_v11 (broadcastInDim S8000000 ![] bcast_S_S8000000 : (⟨S_, .f32⟩ : BufTy).Contents (Elt F) → (⟨S8000000, .f32⟩ : BufTy).Contents (Elt F)),
    binary main_v1 main_v11 main_v12 (cmpf .ogt : (⟨S8000000, .f32⟩ : BufTy).Contents (Elt F) → (⟨S8000000, .f32⟩ : BufTy).Contents (Elt F) → (⟨S8000000, .i1⟩ : BufTy).Contents (Elt F)),
    nullary main_cst_2 (constant S_ .f32 0x3F8147AE#32),
    unary main_cst_2 main_v13 (broadcastInDim S8000000 ![] bcast_S_S8000000 : (⟨S_, .f32⟩ : BufTy).Contents (Elt F) → (⟨S8000000, .f32⟩ : BufTy).Contents (Elt F)),
    binary main_v1 main_v13 main_v14 (cmpf .olt : (⟨S8000000, .f32⟩ : BufTy).Contents (Elt F) → (⟨S8000000, .f32⟩ : BufTy).Contents (Elt F) → (⟨S8000000, .i1⟩ : BufTy).Contents (Elt F)),
    binary main_v12 main_v14 main_v15 (andi : (⟨S8000000, .i1⟩ : BufTy).Contents (Elt F) → (⟨S8000000, .i1⟩ : BufTy).Contents (Elt F) → (⟨S8000000, .i1⟩ : BufTy).Contents (Elt F)),
    nullary main_cst_3 (constant S_ .f32 0x3F800000#32),
    unary main_cst_3 main_v16 (broadcastInDim S8000000 ![] bcast_S_S8000000 : (⟨S_, .f32⟩ : BufTy).Contents (Elt F) → (⟨S8000000, .f32⟩ : BufTy).Contents (Elt F)),
    binary main_v10 main_v16 main_v17 (cmpf .oeq : (⟨S8000000, .f32⟩ : BufTy).Contents (Elt F) → (⟨S8000000, .f32⟩ : BufTy).Contents (Elt F) → (⟨S8000000, .i1⟩ : BufTy).Contents (Elt F)),
    binary main_v15 main_v17 main_v18 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v18) (TRef.of (T := ⟨S8000000, .f32⟩) main_v1) (TRef.of (T := ⟨S8000000, .f32⟩) main_v10) (TRef.of (T := ⟨S8000000, .f32⟩) main_v19) select,
    nullary main_c (constantI S_ 32 0#32),
    unary main_c main_v20 (broadcastInDim S1 ![] bcast_S_S1 : (⟨S_, .i32⟩ : BufTy).Contents (Elt F) → (⟨S1, .i32⟩ : BufTy).Contents (Elt F)),
    ternary main_arg1 main_v20 main_v19 main_v21 ((fun x i u => Host.scatter scatter_S8000000x4_S1_S8000000_0_1_1_0 (fun _ b => b) x i u) : (⟨S8000000x4, .f32⟩ : BufTy).Contents (Elt F) → (⟨S1, .i32⟩ : BufTy).Contents (Elt F) → (⟨S8000000, .f32⟩ : BufTy).Contents (Elt F) → (⟨S8000000x4, .f32⟩ : BufTy).Contents (Elt F)) ]

/-- Segment 2 of @main's operations. -/
def ops2 : List (HloOp τ sig (Elt F)) :=
  [ unary main_arg0 main_v22 ((extractStridedSlice S8000000x1 ![0, 1] · slices_S8000000x4_S8000000x1_0_1) : (⟨S8000000x4, .f32⟩ : BufTy).Contents (Elt F) → (⟨S8000000x1, .f32⟩ : BufTy).Contents (Elt F)),
    reshape main_v22 main_v23 rfl shapeCasts_S8000000x1_S8000000,
    unary main_v21 main_v24 ((extractStridedSlice S8000000x1 ![0, 1] · slices_S8000000x4_S8000000x1_0_1) : (⟨S8000000x4, .f32⟩ : BufTy).Contents (Elt F) → (⟨S8000000x1, .f32⟩ : BufTy).Contents (Elt F)),
    reshape main_v24 main_v25 rfl shapeCasts_S8000000x1_S8000000,
    unary main_v23 main_v26 (Host.absf : (⟨S8000000, .f32⟩ : BufTy).Contents (Elt F) → (⟨S8000000, .f32⟩ : BufTy).Contents (Elt F)),
    nullary main_cst_4 (constant S_ .f32 0x3C23D70A#32),
    unary main_cst_4 main_v27 (broadcastInDim S8000000 ![] bcast_S_S8000000 : (⟨S_, .f32⟩ : BufTy).Contents (Elt F) → (⟨S8000000, .f32⟩ : BufTy).Contents (Elt F)),
    binary main_v26 main_v27 main_v28 (cmpf .olt : (⟨S8000000, .f32⟩ : BufTy).Contents (Elt F) → (⟨S8000000, .f32⟩ : BufTy).Contents (Elt F) → (⟨S8000000, .i1⟩ : BufTy).Contents (Elt F)),
    nullary main_cst_5 (constant S_ .f32 0x00000000#32),
    unary main_cst_5 main_v29 (broadcastInDim S8000000 ![] bcast_S_S8000000 : (⟨S_, .f32⟩ : BufTy).Contents (Elt F) → (⟨S8000000, .f32⟩ : BufTy).Contents (Elt F)),
    binary main_v25 main_v29 main_v30 (cmpf .oeq : (⟨S8000000, .f32⟩ : BufTy).Contents (Elt F) → (⟨S8000000, .f32⟩ : BufTy).Contents (Elt F) → (⟨S8000000, .i1⟩ : BufTy).Contents (Elt F)),
    binary main_v28 main_v30 main_v31 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v31) (TRef.of (T := ⟨S8000000, .f32⟩) main_v23) (TRef.of (T := ⟨S8000000, .f32⟩) main_v25) (TRef.of (T := ⟨S8000000, .f32⟩) main_v32) select,
    nullary main_cst_6 (constant S_ .f32 0x3F7D70A4#32),
    unary main_cst_6 main_v33 (broadcastInDim S8000000 ![] bcast_S_S8000000 : (⟨S_, .f32⟩ : BufTy).Contents (Elt F) → (⟨S8000000, .f32⟩ : BufTy).Contents (Elt F)),
    binary main_v23 main_v33 main_v34 (cmpf .ogt : (⟨S8000000, .f32⟩ : BufTy).Contents (Elt F) → (⟨S8000000, .f32⟩ : BufTy).Contents (Elt F) → (⟨S8000000, .i1⟩ : BufTy).Contents (Elt F)),
    nullary main_cst_7 (constant S_ .f32 0x3F8147AE#32),
    unary main_cst_7 main_v35 (broadcastInDim S8000000 ![] bcast_S_S8000000 : (⟨S_, .f32⟩ : BufTy).Contents (Elt F) → (⟨S8000000, .f32⟩ : BufTy).Contents (Elt F)),
    binary main_v23 main_v35 main_v36 (cmpf .olt : (⟨S8000000, .f32⟩ : BufTy).Contents (Elt F) → (⟨S8000000, .f32⟩ : BufTy).Contents (Elt F) → (⟨S8000000, .i1⟩ : BufTy).Contents (Elt F)),
    binary main_v34 main_v36 main_v37 (andi : (⟨S8000000, .i1⟩ : BufTy).Contents (Elt F) → (⟨S8000000, .i1⟩ : BufTy).Contents (Elt F) → (⟨S8000000, .i1⟩ : BufTy).Contents (Elt F)),
    nullary main_cst_8 (constant S_ .f32 0x3F800000#32),
    unary main_cst_8 main_v38 (broadcastInDim S8000000 ![] bcast_S_S8000000 : (⟨S_, .f32⟩ : BufTy).Contents (Elt F) → (⟨S8000000, .f32⟩ : BufTy).Contents (Elt F)),
    binary main_v32 main_v38 main_v39 (cmpf .oeq : (⟨S8000000, .f32⟩ : BufTy).Contents (Elt F) → (⟨S8000000, .f32⟩ : BufTy).Contents (Elt F) → (⟨S8000000, .i1⟩ : BufTy).Contents (Elt F)),
    binary main_v37 main_v39 main_v40 (andi : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v40) (TRef.of (T := ⟨S8000000, .f32⟩) main_v23) (TRef.of (T := ⟨S8000000, .f32⟩) main_v32) (TRef.of (T := ⟨S8000000, .f32⟩) main_v41) select,
    nullary main_c_9 (constantI S_ 32 1#32),
    unary main_c_9 main_v42 (broadcastInDim S1 ![] bcast_S_S1 : (⟨S_, .i32⟩ : BufTy).Contents (Elt F) → (⟨S1, .i32⟩ : BufTy).Contents (Elt F)),
    ternary main_v21 main_v42 main_v41 main_v43 ((fun x i u => Host.scatter scatter_S8000000x4_S1_S8000000_0_1_1_0 (fun _ b => b) x i u) : (⟨S8000000x4, .f32⟩ : BufTy).Contents (Elt F) → (⟨S1, .i32⟩ : BufTy).Contents (Elt F) → (⟨S8000000, .f32⟩ : BufTy).Contents (Elt F) → (⟨S8000000x4, .f32⟩ : BufTy).Contents (Elt F)) ]

/-- Segment 3 of @main's operations. -/
def ops3 : List (HloOp τ sig (Elt F)) :=
  [ unary main_arg0 main_v44 ((extractStridedSlice S8000000x1 ![0, 1] · slices_S8000000x4_S8000000x1_0_1) : (⟨S8000000x4, .f32⟩ : BufTy).Contents (Elt F) → (⟨S8000000x1, .f32⟩ : BufTy).Contents (Elt F)),
    reshape main_v44 main_v45 rfl shapeCasts_S8000000x1_S8000000,
    unary main_arg0 main_v46 ((extractStridedSlice S8000000x1 ![0, 2] · slices_S8000000x4_S8000000x1_0_2) : (⟨S8000000x4, .f32⟩ : BufTy).Contents (Elt F) → (⟨S8000000x1, .f32⟩ : BufTy).Contents (Elt F)),
    reshape main_v46 main_v47 rfl shapeCasts_S8000000x1_S8000000,
    unary main_v43 main_v48 ((extractStridedSlice S8000000x1 ![0, 1] · slices_S8000000x4_S8000000x1_0_1) : (⟨S8000000x4, .f32⟩ : BufTy).Contents (Elt F) → (⟨S8000000x1, .f32⟩ : BufTy).Contents (Elt F)),
    reshape main_v48 main_v49 rfl shapeCasts_S8000000x1_S8000000,
    nullary main_cst_10 (constant S_ .f32 0x3F666666#32),
    unary main_cst_10 main_v50 (broadcastInDim S8000000 ![] bcast_S_S8000000 : (⟨S_, .f32⟩ : BufTy).Contents (Elt F) → (⟨S8000000, .f32⟩ : BufTy).Contents (Elt F)),
    binary main_v47 main_v50 main_v51 (cmpf .ogt : (⟨S8000000, .f32⟩ : BufTy).Contents (Elt F) → (⟨S8000000, .f32⟩ : BufTy).Contents (Elt F) → (⟨S8000000, .i1⟩ : BufTy).Contents (Elt F)),
    nullary main_cst_11 (constant S_ .f32 0x3F866666#32),
    unary main_cst_11 main_v52 (broadcastInDim S8000000 ![] bcast_S_S8000000 : (⟨S_, .f32⟩ : BufTy).Contents (Elt F) → (⟨S8000000, .f32⟩ : BufTy).Contents (Elt F)),
    binary main_v45 main_v52 main_v53 (mulf : (⟨S8000000, .f32⟩ : BufTy).Contents (Elt F) → (⟨S8000000, .f32⟩ : BufTy).Contents (Elt F) → (⟨S8000000, .f32⟩ : BufTy).Contents (Elt F)),
    binary main_v53 main_v49 main_v54 (cmpf .ogt : (⟨S8000000, .f32⟩ : BufTy).Contents (Elt F) → (⟨S8000000, .f32⟩ : BufTy).Contents (Elt F) → (⟨S8000000, .i1⟩ : BufTy).Contents (Elt F)),
    nullary main_cst_12 (constant S_ .f32 0x3F733333#32),
    unary main_cst_12 main_v55 (broadcastInDim S8000000 ![] bcast_S_S8000000 : (⟨S_, .f32⟩ : BufTy).Contents (Elt F) → (⟨S8000000, .f32⟩ : BufTy).Contents (Elt F)),
    binary main_v45 main_v55 main_v56 (mulf : (⟨S8000000, .f32⟩ : BufTy).Contents (Elt F) → (⟨S8000000, .f32⟩ : BufTy).Contents (Elt F) → (⟨S8000000, .f32⟩ : BufTy).Contents (Elt F)),
    binary main_v56 main_v49 main_v57 (cmpf .olt : (⟨S8000000, .f32⟩ : BufTy).Contents (Elt F) → (⟨S8000000, .f32⟩ : BufTy).Contents (Elt F) → (⟨S8000000, .i1⟩ : BufTy).Contents (Elt F)),
    binary main_v54 main_v57 main_v58 (andi : (⟨S8000000, .i1⟩ : BufTy).Contents (Elt F) → (⟨S8000000, .i1⟩ : BufTy).Contents (Elt F) → (⟨S8000000, .i1⟩ : BufTy).Contents (Elt F)),
    binary main_v51 main_v58 main_v59 (ori : (⟨S8000000, .i1⟩ : BufTy).Contents (Elt F) → (⟨S8000000, .i1⟩ : BufTy).Contents (Elt F) → (⟨S8000000, .i1⟩ : BufTy).Contents (Elt F)),
    TRef.ternary (TRef.of (T := ⟨S8000000, .i1⟩) main_v59) (TRef.of (T := ⟨S8000000, .f32⟩) main_v45) (TRef.of (T := ⟨S8000000, .f32⟩) main_v49) (TRef.of (T := ⟨S8000000, .f32⟩) main_v60) select,
    nullary main_c_13 (constantI S_ 32 1#32),
    unary main_c_13 main_v61 (broadcastInDim S1 ![] bcast_S_S1 : (⟨S_, .i32⟩ : BufTy).Contents (Elt F) → (⟨S1, .i32⟩ : BufTy).Contents (Elt F)),
    ternary main_v43 main_v61 main_v60 main_v62 ((fun x i u => Host.scatter scatter_S8000000x4_S1_S8000000_0_1_1_0 (fun _ b => b) x i u) : (⟨S8000000x4, .f32⟩ : BufTy).Contents (Elt F) → (⟨S1, .i32⟩ : BufTy).Contents (Elt F) → (⟨S8000000, .f32⟩ : BufTy).Contents (Elt F) → (⟨S8000000x4, .f32⟩ : BufTy).Contents (Elt F)) ]

/-- Segment 4 of @main's operations. -/
def ops4 : List (HloOp τ sig (Elt F)) :=
  [ binary main_arg0 main_v62 main_v63 (subf : (⟨S8000000x4, .f32⟩ : BufTy).Contents (Elt F) → (⟨S8000000x4, .f32⟩ : BufTy).Contents (Elt F) → (⟨S8000000x4, .f32⟩ : BufTy).Contents (Elt F)),
    binary main_v63 main_v63 main_v64 (mulf : (⟨S8000000x4, .f32⟩ : BufTy).Contents (Elt F) → (⟨S8000000x4, .f32⟩ : BufTy).Contents (Elt F) → (⟨S8000000x4, .f32⟩ : BufTy).Contents (Elt F)),
    nullary main_cst_14 (constant S_ .f32 0x00000000#32),
    binary main_v64 main_cst_14 main_v65 ((fun x v => Host.reduceAdd x v reducesTo_S8000000x4_S_d0_1 h_S_) : (⟨S8000000x4, .f32⟩ : BufTy).Contents (Elt F) → (⟨S_, .f32⟩ : BufTy).Contents (Elt F) → (⟨S_, .f32⟩ : BufTy).Contents (Elt F)),
    nullary main_cst_15 (constant S_ .f32 0x4BF42400#32),
    binary main_v65 main_cst_15 main_v66 (Host.divf : (⟨S_, .f32⟩ : BufTy).Contents (Elt F) → (⟨S_, .f32⟩ : BufTy).Contents (Elt F) → (⟨S_, .f32⟩ : BufTy).Contents (Elt F)) ]

set_option maxRecDepth 8192 in
/-- The program's operations are the four segments, one after the other. -/
theorem ops_split : (ops : List (HloOp τ sig (Elt F))) = ops1 ++ (ops2 ++ (ops3 ++ ops4)) := rfl

/-- So the contents after the program are those after segment 4, from those after segment 3, from … . -/
theorem after_ops (V : Valuation τ sig (Elt F)) :
    after ops V = after ops4 (after ops3 (after ops2 (after ops1 V))) := by
  rw [ops_split, StableHlo.after_append, StableHlo.after_append, StableHlo.after_append]

end Cert.ReferenceIdeal.RangeLossRef

end
-- ==== Proof.RefRun.lean ====
/-
  The reference program's run: every weakly fair execution of its @main terminates, its result buffer then holds
  the staged function `result` of the two argument arrays as they were at the start, and the arguments are unchanged.

  A straight-line host program leaves in each buffer the fold of its operations' results over the initial contents.
  The fold is taken segment by segment. From ANY contents `W`: segment 1 leaves in its last buffer the target with
  column 0 adjusted; segment 2 leaves the array it finds in segment 1's last buffer with column 1 adjusted; segment 3
  the array it finds in segment 2's last buffer with column 1 replaced once more; segment 4 the mean of the squared
  differences against the array it finds in segment 3's last buffer. No segment writes an argument. Chained, that is
  `result` of the arguments.
-/
import proofs.«116874_j21595095564576_2_alg».proof.Proof.RefSegments

noncomputable section

namespace Cert.ReferenceIdeal.RangeLossRef

open Cert.ReferenceIdeal Cert.ReferenceIdeal.Gen Idealize.ShloMosaic Idealize.ShloMosaic.TcCoe Idealize.SL.Sem Idealize.ShloMosaic.StableHlo

variable {F : FTy → Type} [FloatOps F]

/-! ## Segment 1: column 0 -/

set_option maxHeartbeats 4000000 in
theorem seg1_v21 (W : Valuation τ sig (Elt F)) :
    after ops1 W (Proc.devRef .tc main_v21)
      = adj0 (W (Proc.devRef .tc main_arg0)) (W (Proc.devRef .tc main_arg1)) := by
  unfold ops1
  after_results_simp
  rfl

set_option maxHeartbeats 4000000 in
theorem seg1_arg0 (W : Valuation τ sig (Elt F)) :
    after ops1 W (Proc.devRef .tc main_arg0) = W (Proc.devRef .tc main_arg0) := by
  unfold ops1
  after_results_simp

set_option maxHeartbeats 4000000 in
theorem seg1_arg1 (W : Valuation τ sig (Elt F)) :
    after ops1 W (Proc.devRef .tc main_arg1) = W (Proc.devRef .tc main_arg1) := by
  unfold ops1
  after_results_simp

/-! ## Segment 2: column 1 -/

set_option maxHeartbeats 4000000 in
theorem seg2_v43 (W : Valuation τ sig (Elt F)) :
    after ops2 W (Proc.devRef .tc main_v43)
      = setCol 1#32 (W (Proc.devRef .tc main_v21))
          (nearV (col1 (W (Proc.devRef .tc main_arg0))) (col1 (W (Proc.devRef .tc main_v21)))) := by
  unfold ops2
  after_results_simp
  rfl

set_option maxHeartbeats 4000000 in
theorem seg2_arg0 (W : Valuation τ sig (Elt F)) :
    after ops2 W (Proc.devRef .tc main_arg0) = W (Proc.devRef .tc main_arg0) := by
  unfold ops2
  after_results_simp

set_option maxHeartbeats 4000000 in
theorem seg2_arg1 (W : Valuation τ sig (Elt F)) :
    after ops2 W (Proc.devRef .tc main_arg1) = W (Proc.devRef .tc main_arg1) := by
  unfold ops2
  after_results_simp

/-! ## Segment 3: the confidence-range replacement in column 1 -/

set_option maxHeartbeats 4000000 in
theorem seg3_v62 (W : Valuation τ sig (Elt F)) :
    after ops3 W (Proc.devRef .tc main_v62)
      = setCol 1#32 (W (Proc.devRef .tc main_v43))
          (snapV (col1 (W (Proc.devRef .tc main_arg0))) (col2 (W (Proc.devRef .tc main_arg0)))
            (col1 (W (Proc.devRef .tc main_v43)))) := by
  unfold ops3
  after_results_simp
  rfl

set_option maxHeartbeats 4000000 in
theorem seg3_arg0 (W : Valuation τ sig (Elt F)) :
    after ops3 W (Proc.devRef .tc main_arg0) = W (Proc.devRef .tc main_arg0) := by
  unfold ops3
  after_results_simp

set_option maxHeartbeats 4000000 in
theorem seg3_arg1 (W : Valuation τ sig (Elt F)) :
    after ops3 W (Proc.devRef .tc main_arg1) = W (Proc.devRef .tc main_arg1) := by
  unfold ops3
  after_results_simp

/-! ## Segment 4: the mean of the squared differences -/

theorem seg4_v66 (W : Valuation τ sig (Elt F)) :
    after ops4 W (Proc.devRef .tc main_v66)
      = Host.divf (Host.reduceAdd
          (mulf (subf (W (Proc.devRef .tc main_arg0)) (W (Proc.devRef .tc main_v62)))
            (subf (W (Proc.devRef .tc main_arg0)) (W (Proc.devRef .tc main_v62))))
          (constant S_ .f32 0x00000000#32) reducesTo_S8000000x4_S_d0_1 h_S_) (constant S_ .f32 0x4BF42400#32) := by
  unfold ops4
  after_results_simp

theorem seg4_arg0 (W : Valuation τ sig (Elt F)) :
    after ops4 W (Proc.devRef .tc main_arg0) = W (Proc.devRef .tc main_arg0) := by
  unfold ops4
  after_results_simp

theorem seg4_arg1 (W : Valuation τ sig (Elt F)) :
    after ops4 W (Proc.devRef .tc main_arg1) = W (Proc.devRef .tc main_arg1) := by
  unfold ops4
  after_results_simp

/-! ## The chain -/

/-- After the whole program the result buffer holds `result` of the two arguments' starting contents. -/
theorem after_v66 (V : Valuation τ sig (Elt F)) :
    after ops V (Proc.devRef .tc main_v66)
      = result (V (Proc.devRef .tc main_arg0)) (V (Proc.devRef .tc main_arg1)) := by
  rw [after_ops, seg4_v66, seg3_arg0, seg3_v62, seg2_arg0, seg2_v43, seg1_arg0, seg1_v21]
  rfl

theorem after_arg0 (V : Valuation τ sig (Elt F)) :
    after ops V (Proc.devRef .tc main_arg0) = V (Proc.devRef .tc main_arg0) := by
  rw [after_ops, seg4_arg0, seg3_arg0, seg2_arg0, seg1_arg0]

theorem after_arg1 (V : Valuation τ sig (Elt F)) :
    after ops V (Proc.devRef .tc main_arg1) = V (Proc.devRef .tc main_arg1) := by
  rw [after_ops, seg4_arg1, seg3_arg1, seg2_arg1, seg1_arg1]

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v66).trans (after_v66 _),
      (h c main_arg0).trans (after_arg0 _), (h c main_arg1).trans (after_arg1 _)⟩)
    (run_seq scopedRefs_eq scopedSems_eq defs main (fun _ => ops) main_eq (fun _ => ops_sub) m ρ)

end Cert.ReferenceIdeal.RangeLossRef

end
-- ==== Proof.KernelBlockPieces.lean ====
/-
  What one grid point leaves in the output block, as a function of the two input blocks.

  The output block is a single entry. At the first point the body first stores a zero there, reads it back, and then
  stores that value plus the sum of the squared errors of the point's two input blocks; at every later point it
  stores the value the point before left plus that sum. Both statements hold for any float arithmetic: they only say
  which loads feed which store.
-/
import proofs.«116874_j21595095564576_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RangeLossValue

open Cert.KernelIdeal Cert.KernelIdeal.Gen

variable {F : FTy → Type} [FloatOps F]

/-- The zero offsets of a whole-block access, as a constant function. -/
theorem hz : (![0, 0] : Fin 2 → Nat) = fun _ => 0 := funext fun a => by fin_cases a <;> rfl

/-- The value the body stores, from the two input blocks `x0`, `x1` and the accumulator entry `acc` it read:
    `acc` plus the sum over the block of the squared errors. -/
abbrev stored (x0 x1 : Vec F S10000x4 .f32) (acc : Vec F S1x1 .f32) : Vec F S1x1 .f32 :=
  k0_pay1 x0 (k0_pay3 x0) (k0_pay4 x0) (k0_pay5 x1) (k0_pay6 x1) (k0_pay7 x0 x1) (k0_pay8 x0 x1) (k0_pay9 x0)
    (k0_pay10 x0 x1) acc

/-- A LATER POINT (not the first): over an output block holding `xo`, the body leaves `stored x0 x1 xo`: its one
    store covers the block, and its loads read the three whole blocks. -/
theorem out_B (c : Dev nD) (i : grid0.Coords) (a1 : Memref sig .tc .vmem S10000x4 .f32) (h1 : a1.IsWhole)
    (a2 : Memref sig .tc .vmem S10000x4 .f32) (h2 : a2.IsWhole) (a3 : Memref sig .tc .vmem S1x1 .f32) (h3 : a3.IsWhole)
    (hc : ¬cond0_0 i) (x0 x1 : Vec F S10000x4 .f32) (xo : Vec F S1x1 .f32) :
    out0_B_2 c i a1 h1 a2 h2 a3 h3 hc x0 x1 xo = stored x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S10000x4) hz,
    View.ld_unit_zero (S := S1x1) hz]

/-- THE FIRST POINT: the body stores the zero block, reads it back and leaves `stored x0 x1 zero`; the second store
    covers the block, so the first survives only through the value read back. -/
theorem out_A (c : Dev nD) (i : grid0.Coords) (a1 : Memref sig .tc .vmem S10000x4 .f32) (h1 : a1.IsWhole)
    (a2 : Memref sig .tc .vmem S10000x4 .f32) (h2 : a2.IsWhole) (a3 : Memref sig .tc .vmem S1x1 .f32) (h3 : a3.IsWhole)
    (hc : cond0_0 i) (x0 x1 : Vec F S10000x4 .f32) :
    out0_A_2 c i a1 h1 a2 h2 a3 h3 hc x0 x1 = stored x0 x1 (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S10000x4) hz]

end Cert.KernelIdeal.RangeLossValue

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.KernelBlockSum.lean ====
/-
  The value one grid point adds to the accumulator, at exact arithmetic.

  From the two input blocks (10 000 rows of four predictions, 10 000 rows of four targets) the body builds the
  adjusted target column by column, subtracts it from the predictions, squares, sums each row over its four columns
  and then sums the 10 000 row sums; the result is added to the accumulator entry. Read at exact arithmetic the two
  sums are the double sum over rows and columns of the squared errors of the block.
-/
import proofs.«116874_j21595095564576_2_alg».proof.Proof.Gen.KernelIdeal.Skeleton
import proofs.«116874_j21595095564576_2_alg».proof.Proof.RangeLossSpec
import proofs.«116874_j21595095564576_2_alg».proof.Proof.LibKeepdims
import Idealize.ShloMosaic.Lib.Pipeline.Value
import Idealize.ShloMosaic.Lib.ValueIdx

noncomputable section

open Idealize.ShloMosaic Idealize.ShloMosaic.ValueIdx

namespace Cert.KernelIdeal.RangeLossValue

open Cert.KernelIdeal Cert.KernelIdeal.Gen

section Columns
variable {F : FTy → Type} [FloatOps F]

/-- Column `k` of a block, as a column vector, at row `r`: the block's entry `(r, k)`. -/
theorem col_apply {α : Type} (k : Fin 4) (x : S10000x4.Idx → α) (h : S10000x4.Slices ![0, k.val] S10000x1)
    (r : Fin 10000) (z : Fin 1) :
    extractStridedSlice S10000x1 ![0, k.val] x h (ix2 r z) = x (ix2 r k) := by
  refine extractStridedSlice_apply _ x h _ _ fun a => ?_
  match a with
  | ⟨0, _⟩ => show r.val = 0 + r.val; omega
  | ⟨1, _⟩ => show k.val = k.val + z.val; omega

/-- Four column vectors laid side by side, at `(r, k)`: column `k` at row `r`. -/
theorem concat4_apply {α : Type} (w0 w1 w2 w3 : S10000x1.Idx → α)
    (h : Shape.Concatenates [S10000x1, S10000x1, S10000x1, S10000x1] S10000x4 1) (r : Fin 10000) (k : Fin 4) :
    concatenate S10000x4 1 [⟨S10000x1, w0⟩, ⟨S10000x1, w1⟩, ⟨S10000x1, w2⟩, ⟨S10000x1, w3⟩] h (ix2 r k)
      = (match k with | 0 => w0 | 1 => w1 | 2 => w2 | 3 => w3) (ix2 r (0 : Fin 1)) := by
  have hi : ∀ b : Fin S10000x1.rank, b.cast (rfl : S10000x1.rank = S10000x4.rank) ≠ (1 : Fin S10000x4.rank) →
      ((ix2 r (0 : Fin 1) : S10000x1.Idx) b).val = ((ix2 r k : S10000x4.Idx) (b.cast rfl)).val := fun b hb => by
    match b with
    | ⟨0, _⟩ => rfl
    | ⟨1, _⟩ => exact absurd rfl hb
  match k with
  | 0 => exact concatenate_apply_piece (1 : Fin S10000x4.rank) [⟨S10000x1, w0⟩, ⟨S10000x1, w1⟩, ⟨S10000x1, w2⟩, ⟨S10000x1, w3⟩] h (ix2 r 0) 0 (by show (0 : Nat) < 4; omega) S10000x1 w0 rfl rfl 0 rfl (ix2 r 0) hi rfl
  | 1 => exact concatenate_apply_piece (1 : Fin S10000x4.rank) [⟨S10000x1, w0⟩, ⟨S10000x1, w1⟩, ⟨S10000x1, w2⟩, ⟨S10000x1, w3⟩] h (ix2 r 1) 1 (by show (1 : Nat) < 4; omega) S10000x1 w1 rfl rfl 1 rfl (ix2 r 0) hi rfl
  | 2 => exact concatenate_apply_piece (1 : Fin S10000x4.rank) [⟨S10000x1, w0⟩, ⟨S10000x1, w1⟩, ⟨S10000x1, w2⟩, ⟨S10000x1, w3⟩] h (ix2 r 2) 2 (by show (2 : Nat) < 4; omega) S10000x1 w2 rfl rfl 2 rfl (ix2 r 0) hi rfl
  | 3 => exact concatenate_apply_piece (1 : Fin S10000x4.rank) [⟨S10000x1, w0⟩, ⟨S10000x1, w1⟩, ⟨S10000x1, w2⟩, ⟨S10000x1, w3⟩] h (ix2 r 3) 3 (by show (3 : Nat) < 4; omega) S10000x1 w3 rfl rfl 3 rfl (ix2 r 0) hi rfl

end Columns

section Entries
variable {F : FTy → Type} [FloatOps F]

/-- The first adjustment alone: a target that is exactly 0 beside a prediction within 0.01 of 0 becomes the
    prediction. -/
def zeroFix (p t : F .f32) : F .f32 :=
  Scalar.select
    (IntOp.andi (FloatOps.cmpf .olt (FloatOps.absf p) (FloatOps.ofBits .f32 0x3C23D70A#32))
      (FloatOps.cmpf .oeq t (FloatOps.ofBits .f32 0x00000000#32)))
    p t

/-- The prediction lies strictly between 0.99 and 1.01. -/
def oneBand (p : F .f32) : BitVec 1 :=
  IntOp.andi (FloatOps.cmpf .ogt p (FloatOps.ofBits .f32 0x3F7D70A4#32)) (FloatOps.cmpf .olt p (FloatOps.ofBits .f32 0x3F8147AE#32))

/-- The two adjustments of a target in sequence, in terms of the first. -/
theorem near_eq (p t : F .f32) : Cert.RangeLoss.near p t
    = Scalar.select (IntOp.andi (oneBand p) (FloatOps.cmpf .oeq (zeroFix p t) (FloatOps.ofBits .f32 0x3F800000#32))) p (zeroFix p t) := rfl

variable (x0 x1 : Vec F S10000x4 .f32) (r : Fin 10000) (z : Fin 1)

/-- The prediction columns 1 and 2 and the target columns 2 and 3, at a row. -/
theorem pay3_apply : k0_pay3 x0 (ix2 r z) = x0 (ix2 r 1) := by
  unfold k0_pay3; exact col_apply 1 x0 _ r z
theorem pay4_apply : k0_pay4 x0 (ix2 r z) = x0 (ix2 r 2) := by
  unfold k0_pay4; exact col_apply 2 x0 _ r z
theorem pay5_apply : k0_pay5 x1 (ix2 r z) = x1 (ix2 r 2) := by
  unfold k0_pay5; exact col_apply 2 x1 _ r z
theorem pay6_apply : k0_pay6 x1 (ix2 r z) = x1 (ix2 r 3) := by
  unfold k0_pay6; exact col_apply 3 x1 _ r z

/-- Column 0 of the adjusted target, at a row. -/
theorem pay7_apply : k0_pay7 x0 x1 (ix2 r z) = Cert.RangeLoss.near (x0 (ix2 r 0)) (x1 (ix2 r 0)) := by
  unfold k0_pay7
  show Cert.RangeLoss.near (extractStridedSlice S10000x1 ![0, 0] x0 _ (ix2 r z)) (extractStridedSlice S10000x1 ![0, 0] x1 _ (ix2 r z)) = _
  exact congr (congrArg Cert.RangeLoss.near (col_apply 0 x0 _ r z)) (col_apply 0 x1 _ r z)

/-- Column 1 after the first adjustment, at a row. -/
theorem pay8_apply : k0_pay8 x0 x1 (ix2 r z) = zeroFix (x0 (ix2 r 1)) (x1 (ix2 r 1)) := by
  unfold k0_pay8
  show zeroFix (k0_pay3 x0 (ix2 r z)) (extractStridedSlice S10000x1 ![0, 1] x1 _ (ix2 r z)) = _
  exact congr (congrArg zeroFix (pay3_apply x0 r z)) (col_apply 1 x1 _ r z)

/-- Whether the column-1 prediction lies strictly between 0.99 and 1.01, at a row. -/
theorem pay9_apply : k0_pay9 x0 (ix2 r z) = oneBand (x0 (ix2 r 1)) := by
  unfold k0_pay9
  show oneBand (k0_pay3 x0 (ix2 r z)) = _
  exact congrArg oneBand (pay3_apply x0 r z)

/-- Whether column 1 after the first adjustment is exactly 1, at a row. -/
theorem pay10_apply : k0_pay10 x0 x1 (ix2 r z)
    = FloatOps.cmpf .oeq (zeroFix (x0 (ix2 r 1)) (x1 (ix2 r 1))) (FloatOps.ofBits .f32 0x3F800000#32) := by
  unfold k0_pay10
  show FloatOps.cmpf .oeq (k0_pay8 x0 x1 (ix2 r z)) (FloatOps.ofBits .f32 0x3F800000#32) = _
  exact congrArg (fun v => FloatOps.cmpf .oeq v (FloatOps.ofBits .f32 0x3F800000#32)) (pay8_apply x0 x1 r z)

end Entries

section Sum
open Cert.RangeLoss

variable (x0 x1 : Vec Ideal S10000x4 .f32)

/-- A squared difference at an entry, once the subtrahend is known to be the adjusted target there. -/
theorem sq_entry (r : Fin 10000) (c : Fin 4) (V : FVec Ideal S10000x4 .f32)
    (hV : V (ix2 r c) = target (row x0 r) (row x1 r) c) :
    mulf (subf x0 V) (subf x0 V) (ix2 r c) = sqErr (row x0 r) (row x1 r) c := by
  show (x0 (ix2 r c) - V (ix2 r c)) * (x0 (ix2 r c) - V (ix2 r c)) = _
  rw [hV]
  rfl

/-- THE BLOCK'S CONTRIBUTION. The one entry the body stores is the accumulator entry it read plus the sum, over the
    10 000 rows and four columns of the block, of the squared errors. -/
theorem stored_apply (xo : Vec Ideal S1x1 .f32) :
    k0_pay1 x0 (k0_pay3 x0) (k0_pay4 x0) (k0_pay5 x1) (k0_pay6 x1) (k0_pay7 x0 x1) (k0_pay8 x0 x1) (k0_pay9 x0)
        (k0_pay10 x0 x1) xo (ix2 (0 : Fin 1) (0 : Fin 1))
      = xo (ix2 (0 : Fin 1) (0 : Fin 1)) + sumSq x0 x1 := by
  unfold k0_pay1
  refine (addf_apply _ _ _).trans ?_
  refine congr (congrArg HAdd.hAdd ?_) ?_
  · exact congrFun (shapeCast_self xo _) _
  · refine (LibKeepdims.shapeCast_col_apply _ _ (0 : Fin 1) (0 : Fin 1)).trans ?_
    refine (LibKeepdims.sum_axis0_apply _ _ _ _ _ (0 : Fin 1)).trans ?_
    unfold sumSq
    refine Finset.sum_congr rfl fun r _ => ?_
    refine (LibKeepdims.shapeCast_col_apply _ _ r (0 : Fin 1)).trans ?_
    refine (LibKeepdims.sum_axis1_apply _ _ _ _ _ r).trans ?_
    refine Finset.sum_congr rfl fun c _ => ?_
    refine sq_entry x0 x1 r c _ ?_
    refine (concat4_apply _ _ _ _ _ r c).trans ?_
    match c with
    | 0 => exact pay7_apply x0 x1 r 0
    | 1 =>
      show snap (k0_pay3 x0 (ix2 r 0)) (k0_pay4 x0 (ix2 r 0))
        (Scalar.select (IntOp.andi (k0_pay9 x0 (ix2 r 0)) (k0_pay10 x0 x1 (ix2 r 0))) (k0_pay3 x0 (ix2 r 0)) (k0_pay8 x0 x1 (ix2 r 0))) = _
      rw [pay3_apply x0 r 0, pay4_apply x0 r 0, pay9_apply x0 r 0, pay10_apply x0 x1 r 0, pay8_apply x0 x1 r 0]
      rfl
    | 2 => exact pay5_apply x1 r 0
    | 3 => exact pay6_apply x1 r 0

end Sum

end Cert.KernelIdeal.RangeLossValue

end
-- ==== Proof.KernelRunningSum.lean ====
/-
  The accumulation across the grid, at exact arithmetic.

  The output block is one entry that stays in place over the 800 grid points. The first point zeroes it and adds
  the sum of the squared errors of its two input blocks; every later point adds its own blocks' sum to what the
  point before left. So after point n the entry holds the sum of the block sums of points 0 … n — by induction on
  the point, the zero being the exact 0.
-/
import proofs.«116874_j21595095564576_2_alg».proof.Proof.KernelBlockPieces
import proofs.«116874_j21595095564576_2_alg».proof.Proof.KernelBlockSum

noncomputable section

open Idealize.ShloMosaic Idealize.ShloMosaic.TcCoe Idealize.SL.Sem Idealize.ShloMosaic.ValueIdx
open Idealize.ShloMosaic.Pipeline (Dat)

namespace Cert.KernelIdeal.RangeLossValue

open Cert.KernelIdeal Cert.KernelIdeal.Gen Cert.RangeLoss

variable (m : (ℓ : Loc nD τ sig) → Buf (Elt Ideal) ℓ) (ρ : Dev nD → PrngReg)

/-- The squared errors of the two input blocks at point `t`, summed. -/
def blockSum (c : Dev nD) (t : Fin cfg0.N) : EReal :=
  sumSq (iblk m c 0 t : Vec Ideal S10000x4 .f32) (iblk m c 1 t : Vec Ideal S10000x4 .f32)

/-- THE FIRST POINT leaves its own block sum: the zero it stores is the exact 0. -/
theorem outsAt_zero (c : Dev nD) (h : 0 < cfg0.N) :
    outsAt0 m c 0 h (ix2 (0 : Fin 1) (0 : Fin 1)) = blockSum m c ⟨0, h⟩ := by
  refine (congrFun (outsAt0_A m c ⟨0, h⟩ rfl) _).trans ?_
  refine (congrFun (out_A (F := Ideal) c (grid0.coords ⟨0, h⟩) (ms0_0 ⟨0, h⟩) (hs0_0 ⟨0, h⟩) (ms0_1 ⟨0, h⟩) (hs0_1 ⟨0, h⟩)
    (ms0_2 ⟨0, h⟩) (hs0_2 ⟨0, h⟩) ((hcond0_0 ⟨0, h⟩).mpr rfl) (iblk m c 0 ⟨0, h⟩) (iblk m c 1 ⟨0, h⟩)) _).trans ?_
  refine (stored_apply (iblk m c 0 ⟨0, h⟩) (iblk m c 1 ⟨0, h⟩) (k0_pay2 (F := Ideal))).trans ?_
  show Ideal.ofBits .f32 0x00000000#32 + blockSum m c ⟨0, h⟩ = _
  rw [Ideal.ofBits_zero_f32, zero_add]

/-- A LATER POINT adds its block sum to what the point before left. -/
theorem outsAt_succ (c : Dev nD) (n : ℕ) (h : n + 1 < cfg0.N) :
    outsAt0 m c (n + 1) h (ix2 (0 : Fin 1) (0 : Fin 1))
      = outsAt0 m c n (Nat.lt_of_succ_lt h) (ix2 (0 : Fin 1) (0 : Fin 1)) + blockSum m c ⟨n + 1, h⟩ := by
  have hN : cfg0.N = 800 := N_0
  have hB : ¬(⟨n + 1, h⟩ : Fin cfg0.N).val % 800 = 0 := by dsimp only; omega
  refine (congrFun (outsAt0_B m c ⟨n + 1, h⟩ hB) _).trans ?_
  refine (congrFun (out_B (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (fun h' => hB ((hcond0_0 ⟨n + 1, h⟩).mp h')) (iblk m c 0 ⟨n + 1, h⟩) (iblk m c 1 ⟨n + 1, h⟩)
    (outsAt0 m c n (Nat.lt_of_succ_lt h))) _).trans ?_
  exact stored_apply (iblk m c 0 ⟨n + 1, h⟩) (iblk m c 1 ⟨n + 1, h⟩) (outsAt0 m c n (Nat.lt_of_succ_lt h))

/-- THE ACCUMULATION: after point `n` the output entry holds the sum of the block sums of points `0 … n`. -/
theorem outsAt_eq (c : Dev nD) : ∀ (n : ℕ) (h : n < cfg0.N),
    outsAt0 m c n h (ix2 (0 : Fin 1) (0 : Fin 1)) = ∑ k : Fin (n + 1), blockSum m c ⟨k.val, lt_of_le_of_lt (Nat.le_of_lt_succ k.isLt) h⟩
  | 0, h => by
    rw [outsAt_zero m c h, Fin.sum_univ_one]
    rfl
  | n + 1, h => by
    rw [outsAt_succ m c n h, outsAt_eq c n (Nat.lt_of_succ_lt h)]
    exact (Fin.sum_univ_castSucc (fun k : Fin (n + 1 + 1) =>
      blockSum m c ⟨k.val, lt_of_le_of_lt (Nat.le_of_lt_succ k.isLt) h⟩)).symm

end Cert.KernelIdeal.RangeLossValue

end
-- ==== Proof.KernelLossRun.lean ====
/-
  The kernel's result, at exact arithmetic: the loss of the two argument arrays.

  At grid point t both input windows hold rows 10000·t … 10000·t + 9999 of their arrays, so the block sum of point t
  is the sum of the squared errors over that row block. The output entry after the last point is therefore the sum
  of the 800 row-block sums, which is the sum over all 8 000 000 rows. The output window is written back once, after
  the last point, and its one block is the whole one-entry array; the host then reshapes that entry to a scalar and
  divides it by 32 000 000.
-/
import proofs.«116874_j21595095564576_2_alg».proof.Proof.KernelRunningSum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RangeLossValue

open Cert.KernelIdeal Cert.KernelIdeal.Gen Cert.RangeLoss

variable (m : (ℓ : Loc nD τ sig) → Buf (Elt Ideal) ℓ) (ρ : Dev nD → PrngReg)

/-- Where the windows' blocks sit: at point `t` both input windows are at block row `t`, column block 0; the
    output window never moves. Decided once over the grid. -/
theorem idx_facts : ∀ t : Fin cfg0.N, win0_0.index t 0 = t.val ∧ win0_0.index t 1 = 0 ∧ win0_1.index t 0 = t.val
    ∧ win0_1.index t 1 = 0 ∧ win0_2.index t 0 = 0 ∧ win0_2.index t 1 = 0 :=
  (by decide +kernel : ∀ t : Fin grid0.N, win0_0.index t 0 = t.val ∧ win0_0.index t 1 = 0 ∧ win0_1.index t 0 = t.val
    ∧ win0_1.index t 1 = 0 ∧ win0_2.index t 0 = 0 ∧ win0_2.index t 1 = 0)

/-- The predictions' block at point `t` is rows `10000·t …` of the predictions. -/
theorem iblk0_eq (c : Dev nD) (t : Fin cfg0.N) :
    (iblk m c 0 t : Vec Ideal S10000x4 .f32)
      = rowBlock (m ((c.tc : Thread nD τ).loc main_arg0)) ⟨t.val, lt_of_lt_of_eq t.isLt N_0⟩ := by
  funext j
  unfold iblk rowBlock
  rw [View.read_apply]
  show m ((c.tc : Thread nD τ).loc main_arg0) _ = m ((c.tc : Thread nD τ).loc main_arg0) _
  congr 1
  funext a
  apply Fin.ext
  match a with
  | ⟨0, _⟩ => show win0_0.index t 0 * 10000 + 1 * (j 0).val = t.val * 10000 + (j 0).val; rw [(idx_facts t).1]; omega
  | ⟨1, _⟩ => show win0_0.index t 1 * 4 + 1 * (j 1).val = (j 1).val; rw [(idx_facts t).2.1]; omega

/-- The targets' block at point `t` is rows `10000·t …` of the targets. -/
theorem iblk1_eq (c : Dev nD) (t : Fin cfg0.N) :
    (iblk m c 1 t : Vec Ideal S10000x4 .f32)
      = rowBlock (m ((c.tc : Thread nD τ).loc main_arg1)) ⟨t.val, lt_of_lt_of_eq t.isLt N_0⟩ := by
  funext j
  unfold iblk rowBlock
  rw [View.read_apply]
  show m ((c.tc : Thread nD τ).loc main_arg1) _ = m ((c.tc : Thread nD τ).loc main_arg1) _
  congr 1
  funext a
  apply Fin.ext
  match a with
  | ⟨0, _⟩ => show win0_1.index t 0 * 10000 + 1 * (j 0).val = t.val * 10000 + (j 0).val; rw [(idx_facts t).2.2.1]; omega
  | ⟨1, _⟩ => show win0_1.index t 1 * 4 + 1 * (j 1).val = (j 1).val; rw [(idx_facts t).2.2.2.1]; omega

/-- The sum of the squared errors over the whole arrays on core `c`. -/
abbrev total (c : Dev nD) : EReal :=
  sumSq (m ((c.tc : Thread nD τ).loc main_arg0)) (m ((c.tc : Thread nD τ).loc main_arg1))

/-- After the last point the output entry holds the sum over the whole arrays: the 800 block sums are the sum over
    all rows taken 10 000 rows at a time. -/
theorem outsAt_last (c : Dev nD) (h : 799 < cfg0.N) :
    outsAt0 m c 799 h (ix2 (0 : Fin 1) (0 : Fin 1)) = total m c := by
  rw [outsAt_eq m c 799 h]
  unfold total
  rw [sumSq_blocked]
  refine Finset.sum_congr rfl fun k _ => ?_
  show sumSq (iblk m c 0 ⟨k.val, _⟩ : Vec Ideal S10000x4 .f32) (iblk m c 1 ⟨k.val, _⟩ : Vec Ideal S10000x4 .f32) = _
  exact congr (congrArg sumSq (iblk0_eq m c _)) (iblk1_eq m c _)

/-- The result array as the kernel leaves it: its one entry at the sum over the whole arrays. -/
abbrev result (c : Dev nD) : Buf (Elt Ideal) ((c.tc : Thread nD τ).loc main_v0) := fun _ => total m c

/-- The one-entry block has one index. -/
theorem idx_S1x1 (y : S1x1.Idx) : y = ix2 (0 : Fin 1) (0 : Fin 1) := by
  funext a
  match a with
  | ⟨0, _⟩ => exact Subsingleton.elim (α := Fin 1) _ _
  | ⟨1, _⟩ => exact Subsingleton.elim (α := Fin 1) _ _

/-- The last grid point. -/
abbrev tLast : Fin cfg0.N := ⟨799, lt_of_lt_of_eq (by omega : 799 < 800) N_0.symm⟩

/-- The one write-back, after the last point, writes the sum over the whole arrays. -/
theorem flushed_eq (c : Dev nD) (t : Fin cfg0.N) (hf : (cfg0.win 2).flush t = true) :
    (dats m 0 c).flushed 2 t = ((cfg0.win 2).blk t).view.read (Elt Ideal) (result m c) := by
  have hN : t.val < 800 := lt_of_lt_of_eq t.isLt N_0
  have h3 : t.val = 799 := by have := (flush0_2 t).mp hf; omega
  show (cfg0.win 2).cut (grid0.coords t) ((dats m 0 c).after 2 t) = _
  rw [after0_2]
  funext y
  rw [View.read_apply]
  refine (congrArg (outsAt0 m c t.val t.isLt) (idx_S1x1 _)).trans ?_
  obtain ⟨n, hn⟩ := t
  dsimp only at h3 ⊢
  subst h3
  rw [outsAt_last m c hn]
  exact (cast_eq _ _).symm

/-- So the result array ends holding it: the last point's block is the whole one-entry array. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [(idx_facts tLast).2.2.2.2.1, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [(idx_facts tLast).2.2.2.2.2, show win0_2.xsize (grid0.coords tLast) 1 = 1 from by decide +kernel]; omega⟩

/-- THE HOST TAIL: the one-entry result is reshaped to a scalar and divided by the number of entries. -/
theorem tail_eq (c : Dev nD) :
    Pipeline.afterTail₀ cfgs (dats m) 0 (V0 m) [hostOps1] c main_v2
      = fun _ => loss (m ((c.tc : Thread nD τ).loc main_arg0)) (m ((c.tc : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = result m c := (Pipeline.withArrays_arr spec0 launch0.win.arr_inj c _ _ 2).trans (final m c)
  rw [e]
  unfold loss
  dsimp only
  show Host.divf (F := Ideal) (fun i => shapeCast main_v1.ty.shape
      (fun _ : S1x1.Idx => sumSq (m ((c.tc : Thread nD τ).loc main_arg0)) (m ((c.tc : Thread nD τ).loc main_arg1))) shapeCasts_S1x1_S_ i)
      (constant (F := Ideal) S_ .f32 0x4BF42400#32) = _
  generalize sumSq (m ((c.tc : Thread nD τ).loc main_arg0)) (m ((c.tc : Thread nD τ).loc main_arg1)) = s
  rfl

/-- THE KERNEL'S RUN, READ: every weakly fair execution terminates with the result at the loss of the two argument
    arrays — the sum of the squared errors over all entries divided by their number — and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = (fun _ => Cert.RangeLoss.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- info: 'Cert.KernelIdeal.RangeLossValue.run' depends on axioms: [propext, Classical.choice, Quot.sound] -/
#guard_msgs in #print axioms run

end Cert.KernelIdeal.RangeLossValue

end
-- ==== Proof.lean ====
/-
  The range loss: a Pallas kernel that streams the 8 000 000 rows of predictions and targets 10 000 at a time,
  adds each block's sum of squared errors into a one-entry accumulator carried across the 800 grid points, and
  divides by the number of entries on the host — against the plain reference, which adjusts the target array
  column by column, squares the difference and takes the mean over all entries.

  On the extended reals both compute `Cert.RangeLoss.loss` of the two argument arrays: entry by entry the adjusted
  target is the same function of the row (the same compares against the same single-precision constants, in the
  same order), and the sum over all entries is the sum over the 800 row blocks of each block's sum, because
  addition is commutative and associative. No finiteness is needed for that, so the precondition is never opened.
  The kernel's idealization rewrote nothing, so `preserves` is trivial.
-/
import proofs.«116874_j21595095564576_2_alg».proof.Defs
import proofs.«116874_j21595095564576_2_alg».proof.Proof.Gen.Kernel
import proofs.«116874_j21595095564576_2_alg».proof.Proof.Gen.Kernel.Skeleton
import proofs.«116874_j21595095564576_2_alg».proof.Proof.Gen.Kernel.Launch
import proofs.«116874_j21595095564576_2_alg».proof.Proof.Gen.Kernel.Points
import proofs.«116874_j21595095564576_2_alg».proof.Proof.Gen.Kernel.Frame
import proofs.«116874_j21595095564576_2_alg».proof.Proof.Gen.KernelIdeal
import proofs.«116874_j21595095564576_2_alg».proof.Proof.Gen.KernelIdeal.Skeleton
import proofs.«116874_j21595095564576_2_alg».proof.Proof.Gen.KernelIdeal.Launch
import proofs.«116874_j21595095564576_2_alg».proof.Proof.Gen.KernelIdeal.Points
import proofs.«116874_j21595095564576_2_alg».proof.Proof.Gen.KernelIdeal.Frame
import proofs.«116874_j21595095564576_2_alg».proof.Proof.Gen.ReferenceIdeal
import proofs.«116874_j21595095564576_2_alg».proof.Proof.Gen.Pre_finite_inputs
import proofs.«116874_j21595095564576_2_alg».proof.Proof.RefRun
import proofs.«116874_j21595095564576_2_alg».proof.Proof.KernelLossRun
import Idealize.ShloMosaic.Adequacy
import Idealize.ShloMosaic.Init

noncomputable section

namespace Cert.Proof

open Idealize.ShloMosaic Idealize.SL.Sem

/-- The word-level kernel and its idealization run, and keep their arguments: the generated frames. -/
theorem frame_k : Cert.frame_Kernel := fun m ρ _ => Cert.Kernel.Gen.frame m ρ
theorem frame_ki : Cert.frame_KernelIdeal := fun m ρ _ => Cert.KernelIdeal.Gen.frame m ρ

/-- The reference runs and keeps its arguments: its run, with the result's clause dropped. -/
theorem frame_ri : Cert.frame_ReferenceIdeal := fun m ρ _ =>
  (θ_run Cert.ReferenceIdeal.defs _ _).mono (fun _ h c => (h c).2)
    (Cert.ReferenceIdeal.RangeLossRef.run (F := Ideal) m ρ)

/-- The idealization rewrote no operation. -/
theorem preserves : Cert.preserves_Kernel_KernelIdeal := trivial

/-- From memories that agree on the two arguments both programs end with the loss of those arguments in their
    result buffer: the kernel's run states it, and the reference's staged result is the loss (`result_eq`). -/
theorem algebraic : Cert.algebraic_KernelIdeal_ReferenceIdeal := by
  intro m ρ m' ρ' _ hagree
  refine ⟨fun c => fun _ => Cert.RangeLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RangeLossValue.run m ρ, ?_⟩
  refine (θ_run Cert.ReferenceIdeal.defs _ _).mono (fun _ h c => ⟨(h c).1.trans ?_, (h c).2⟩)
    (Cert.ReferenceIdeal.RangeLossRef.run (F := Ideal) m' ρ')
  rw [(hagree c).1, (hagree c).2]
  exact Cert.ReferenceIdeal.RangeLossRef.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
